-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x288x2048 : Shape := ⟨3, ![32, 288, 2048]⟩
abbrev S1x288x2048 : Shape := ⟨3, ![1, 288, 2048]⟩
abbrev S2048x2048 : Shape := ⟨2, ![2048, 2048]⟩
abbrev S_ : Shape := ⟨0, ![]⟩

class Facts : Prop where
  bcast_S_S32x288x2048 : S_.BroadcastsInDim S32x288x2048 (![] : Fin 0 → Fin S32x288x2048.rank)
  reducesTo_S32x288x2048_S_d0_1_2 : S32x288x2048.ReducesTo [0, 1, 2] S_
  h_S_ : 0 < S_.numel
  bcast_S_S1x288x2048 : S_.BroadcastsInDim S1x288x2048 (![] : Fin 0 → Fin S1x288x2048.rank)
  reducesTo_S1x288x2048_S_d0_1_2 : S1x288x2048.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S32x288x2048 .f32) (main_arg1 : FVec F S32x288x2048 .f32) (main_arg2 : FVec F S1x288x2048 .f32) (main_arg3 : FVec F S2048x2048 .f32) (main_arg4 : FVec F S2048x2048 .f32) : IVec S_ 1 :=
  let main_v0 : FVec F S32x288x2048 .f32 := Host.absf main_arg0
  let main_cst : FVec F S_ .f32 := constant S_ .f32 0x7F800000#32
  let main_v1 : FVec F S32x288x2048 .f32 := broadcastInDim S32x288x2048 ![] bcast_S_S32x288x2048 main_cst
  let main_v2 : IVec S32x288x2048 1 := cmpf .olt main_v0 main_v1
  let main_c : IVec S_ 1 := constantI S_ 1 1#1
  let main_v3 : IVec S_ 1 := (fun x v => Host.reduce IntOp.andi x v reducesTo_S32x288x2048_S_d0_1_2 h_S_) main_v2 main_c
  let main_v4 : FVec F S32x288x2048 .f32 := Host.absf main_arg1
  let main_cst_0 : FVec F S_ .f32 := constant S_ .f32 0x7F800000#32
  let main_v5 : FVec F S32x288x2048 .f32 := broadcastInDim S32x288x2048 ![] bcast_S_S32x288x2048 main_cst_0
  let main_v6 : IVec S32x288x2048 1 := cmpf .olt main_v4 main_v5
  let main_c_1 : IVec S_ 1 := constantI S_ 1 1#1
  let main_v7 : IVec S_ 1 := (fun x v => Host.reduce IntOp.andi x v reducesTo_S32x288x2048_S_d0_1_2 h_S_) main_v6 main_c_1
  let main_v8 : IVec S_ 1 := andi main_v3 main_v7
  let main_v9 : FVec F S1x288x2048 .f32 := Host.absf main_arg2
  let main_cst_2 : FVec F S_ .f32 := constant S_ .f32 0x7F800000#32
  let main_v10 : FVec F S1x288x2048 .f32 := broadcastInDim S1x288x2048 ![] bcast_S_S1x288x2048 main_cst_2
  let main_v11 : IVec S1x288x2048 1 := cmpf .olt main_v9 main_v10
  let main_c_3 : IVec S_ 1 := constantI S_ 1 1#1
  let main_v12 : IVec S_ 1 := (fun x v => Host.reduce IntOp.andi x v reducesTo_S1x288x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S32x288x2048 : Shape := ⟨3, ![32, 288, 2048]⟩
abbrev S1x288x2048 : Shape := ⟨3, ![1, 288, 2048]⟩
abbrev S2048x2048 : Shape := ⟨2, ![2048, 2048]⟩
abbrev S32x288x288 : Shape := ⟨3, ![32, 288, 288]⟩
abbrev S1x288x288 : Shape := ⟨3, ![1, 288, 288]⟩
abbrev S288x2048 : Shape := ⟨2, ![288, 2048]⟩
abbrev S288 : Shape := ⟨1, ![288]⟩
abbrev S288x1 : Shape := ⟨2, ![288, 1]⟩
abbrev S288x288 : Shape := ⟨2, ![288, 288]⟩
abbrev S2048x512 : Shape := ⟨2, ![2048, 512]⟩
abbrev S288x512 : Shape := ⟨2, ![288, 512]⟩

abbrev nBuf : Space → Nat
  | .hbm => 12
  | .vmem => 14
  | .smem => 0
  | _ => 0

abbrev bufTy : (tb : Table) → Fin (tcTables nBuf tb) → BufTy
  | .hbm, ⟨0, _⟩ => ⟨S32x288x2048, .f32⟩
  | .hbm, ⟨1, _⟩ => ⟨S32x288x2048, .f32⟩
  | .hbm, ⟨2, _⟩ => ⟨S1x288x2048, .f32⟩
  | .hbm, ⟨3, _⟩ => ⟨S2048x2048, .f32⟩
  | .hbm, ⟨4, _⟩ => ⟨S2048x2048, .f32⟩
  | .hbm, ⟨5, _⟩ => ⟨S32x288x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S32x288x2048, .f32⟩
  | .hbm, ⟨11, _⟩ => ⟨S32x288x288, .f32⟩
  | .local _ .vmem, ⟨0, _⟩ => ⟨S1x288x2048, .bf16⟩
  | .local _ .vmem, ⟨1, _⟩ => ⟨S1x288x2048, .bf16⟩
  | .local _ .vmem, ⟨2, _⟩ => ⟨S1x288x2048, .f32⟩
  | .local _ .vmem, ⟨3, _⟩ => ⟨S1x288x2048, .f32⟩
  | .local _ .vmem, ⟨4, _⟩ => ⟨S1x288x2048, .f32⟩
  | .local _ .vmem, ⟨5, _⟩ => ⟨S2048x2048, .bf16⟩
  | .local _ .vmem, ⟨6, _⟩ => ⟨S2048x2048, .bf16⟩
  | .local _ .vmem, ⟨7, _⟩ => ⟨S1x288x2048, .f32⟩
  | .local _ .vmem, ⟨8, _⟩ => ⟨S1x288x2048, .f32⟩
  | .local _ .vmem, ⟨9, _⟩ => ⟨S1x288x288, .f32⟩
  | .local _ .vmem, ⟨10, _⟩ => ⟨S1x288x288, .f32⟩
  | .local _ .vmem, ⟨11, _⟩ => ⟨S288x2048, .f32⟩
  | .local _ .vmem, ⟨12, _⟩ => ⟨S288x2048, .bf16⟩
  | .local _ .vmem, ⟨13, _⟩ => ⟨S288x2048, .bf16⟩
  | _, _ => ⟨S32x288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x288x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x288x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x288x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x288x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S2048x2048_S2048x2048_1_0 : S2048x2048.Transposes [1, 0] S2048x2048
  inb_S1x288x2048_S1x288x2048_0_0_0 : ∀ a, (![0, 0, 0] : Fin 3 → Nat) a + S1x288x2048.size a ≤ S1x288x2048.size a
  h_S1x288x2048 : 0 < S1x288x2048.numel
  shapeCasts_S1x288x2048_S288x2048 : S1x288x2048.ShapeCasts S288x2048
  reduces_S288x2048_S288 : S288x2048.Reduces [1] S288
  shapeCasts_S288_S288x1 : S288.ShapeCasts S288x1
  broadcasts_S288x1_S288x2048 : S288x1.Broadcasts S288x2048
  reduces_S288x288_S288 : S288x288.Reduces [1] S288
  broadcasts_S288x1_S288x288 : S288x1.Broadcasts S288x288
  inb_S288x2048_S288x2048_0_0 : ∀ a, (![0, 0] : Fin 2 → Nat) a + S288x2048.size a ≤ S288x2048.size a
  h_S288x2048 : 0 < S288x2048.numel
  shapeCasts_S288x2048_S288x2048 : S288x2048.ShapeCasts S288x2048
  inb_S2048x2048_S2048x512_0_0 : ∀ a, (![0, 0] : Fin 2 → Nat) a + S2048x512.size a ≤ S2048x2048.size a
  h_S2048x512 : 0 < S2048x512.numel
  shapeCasts_S2048x512_S2048x512 : S2048x512.ShapeCasts S2048x512
  inb_S288x2048_S288x512_0_0 : ∀ a, (![0, 0] : Fin 2 → Nat) a + S288x512.size a ≤ S288x2048.size a
  h_S288x512 : 0 < S288x512.numel
  shapeCasts_S288x512_S288x512 : S288x512.ShapeCasts S288x512
  packedbf16_S288x2048_S288x512_0_0 : (Rect.unit (s := S288x2048) ![0, 0] S288x512.size inb_S288x2048_S288x512_0_0).PackedRows (EltTy.packing .bf16)
  inb_S2048x2048_S2048x512_0_512 : ∀ a, (![0, 512] : Fin 2 → Nat) a + S2048x512.size a ≤ S2048x2048.size a
  inb_S288x2048_S288x512_0_512 : ∀ a, (![0, 512] : Fin 2 → Nat) a + S288x512.size a ≤ S288x2048.size a
  packedbf16_S288x2048_S288x512_0_512 : (Rect.unit (s := S288x2048) ![0, 512] S288x512.size inb_S288x2048_S288x512_0_512).PackedRows (EltTy.packing .bf16)
  inb_S2048x2048_S2048x512_0_1024 : ∀ a, (![0, 1024] : Fin 2 → Nat) a + S2048x512.size a ≤ S2048x2048.size a
  inb_S288x2048_S288x512_0_1024 : ∀ a, (![0, 1024] : Fin 2 → Nat) a + S288x512.size a ≤ S288x2048.size a
  packedbf16_S288x2048_S288x512_0_1024 : (Rect.unit (s := S288x2048) ![0, 1024] S288x512.size inb_S288x2048_S288x512_0_1024).PackedRows (EltTy.packing .bf16)
  inb_S2048x2048_S2048x512_0_1536 : ∀ a, (![0, 1536] : Fin 2 → Nat) a + S2048x512.size a ≤ S2048x2048.size a
  inb_S288x2048_S288x512_0_1536 : ∀ a, (![0, 1536] : Fin 2 → Nat) a + S288x512.size a ≤ S288x2048.size a
  packedbf16_S288x2048_S288x512_0_1536 : (Rect.unit (s := S288x2048) ![0, 1536] S288x512.size inb_S288x2048_S288x512_0_1536).PackedRows (EltTy.packing .bf16)
  shapeCasts_S288x2048_S1x288x2048 : S288x2048.ShapeCasts S1x288x2048
  inb_S1x288x288_S1x288x288_0_0_0 : ∀ a, (![0, 0, 0] : Fin 3 → Nat) a + S1x288x288.size a ≤ S1x288x288.size a
  h_S1x288x288 : 0 < S1x288x288.numel
  shapeCasts_S1x288x288_S288x288 : S1x288x288.ShapeCasts S288x288
  shapeCasts_S288x288_S1x288x288 : S288x288.ShapeCasts S1x288x288
  dot_S288x2048_S288x2048_S288x288_1_1_0_0_n_n_wf : DotDims.WF S288x2048 S288x2048 S288x288 [1] [1] [0] [0] [] []
  dot_S288x288_S288x2048_S288x2048_1_0_0_1_n_n_wf : DotDims.WF S288x288 S288x2048 S288x2048 [1] [0] [0] [1] [] []
  dot_S288x2048_S2048x512_S288x512_1_0_0_1_n_n_wf : DotDims.WF S288x2048 S2048x512 S288x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x2048.size a ≤ S32x288x2048.size a
  hwx0_0 : ∀ i : grid0.Coords, EltTy.bits .bf16 = 32 ∨ (Rect.block (s := S32x288x2048) S1x288x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x2048.size a ≤ S32x288x2048.size a
  hwx0_1 : ∀ i : grid0.Coords, EltTy.bits .f32 = 32 ∨ (Rect.block (s := S32x288x2048) S1x288x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x288x2048.size a ≤ S1x288x2048.size a
  hwx0_2 : ∀ i : grid0.Coords, EltTy.bits .f32 = 32 ∨ (Rect.block (s := S1x288x2048) S1x288x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x288x2048.size a ≤ S32x288x2048.size a
  hwx0_5 : ∀ i : grid0.Coords, EltTy.bits .f32 = 32 ∨ (Rect.block (s := S32x288x2048) S1x288x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x288x288.size a ≤ S32x288x288.size a
  hwx0_6 : ∀ i : grid0.Coords, EltTy.bits .f32 = 32 ∨ (Rect.block (s := S32x288x288) S1x288x288.size (cc0_transform_6 i) (hinb0_6 i)).WholeWords (EltTy.packing .f32)

variable [Facts₀]

def dot_S288x2048_S288x2048_S288x288_1_1_0_0_n_n : DotDims S288x2048 S288x2048 S288x288 where
  lhsContracting := [1]
  rhsContracting := [1]
  lhsNonContracting := [0]
  rhsNonContracting := [0]
  lhsBatch := []
  rhsBatch := []
  wf := dot_S288x2048_S288x2048_S288x288_1_1_0_0_n_n_wf
def dot_S288x288_S288x2048_S288x2048_1_0_0_1_n_n : DotDims S288x288 S288x2048 S288x2048 where
  lhsContracting := [1]
  rhsContracting := [0]
  lhsNonContracting := [0]
  rhsNonContracting := [1]
  lhsBatch := []
  rhsBatch := []
  wf := dot_S288x288_S288x2048_S288x2048_1_0_0_1_n_n_wf
def dot_S288x2048_S2048x512_S288x512_1_0_0_1_n_n : DotDims S288x2048 S2048x512 S288x512 where
  lhsContracting := [1]
  rhsContracting := [0]
  lhsNonContracting := [0]
  rhsNonContracting := [1]
  lhsBatch := []
  rhsBatch := []
  wf := dot_S288x2048_S2048x512_S288x512_1_0_0_1_n_n_wf

abbrev win0_0 : Pipeline.Window sig grid0 :=
  Pipeline.Window.ofSpec (Memref.whole main_v0) S1x288x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x288x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x288x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x288x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x288x288.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x288x2048 : Shape := ⟨3, ![32, 288, 2048]⟩
abbrev S1x288x2048 : Shape := ⟨3, ![1, 288, 2048]⟩
abbrev S2048x2048 : Shape := ⟨2, ![2048, 2048]⟩
abbrev S_ : Shape := ⟨0, ![]⟩
abbrev S32x288 : Shape := ⟨2, ![32, 288]⟩
abbrev S32x288x1 : Shape := ⟨3, ![32, 288, 1]⟩
abbrev S32x288x288 : Shape := ⟨3, ![32, 288, 288]⟩

abbrev nBuf : Space → Nat
  | .hbm => 54
  | .vmem => 0
  | .smem => 0
  | _ => 0

abbrev bufTy : (tb : Table) → Fin (tcTables nBuf tb) → BufTy
  | .hbm, ⟨0, _⟩ => ⟨S32x288x2048, .f32⟩
  | .hbm, ⟨1, _⟩ => ⟨S32x288x2048, .f32⟩
  | .hbm, ⟨2, _⟩ => ⟨S1x288x2048, .f32⟩
  | .hbm, ⟨3, _⟩ => ⟨S2048x2048, .f32⟩
  | .hbm, ⟨4, _⟩ => ⟨S2048x2048, .f32⟩
  | .hbm, ⟨5, _⟩ => ⟨S32x288x2048, .f32⟩
  | .hbm, ⟨6, _⟩ => ⟨S32x288x2048, .f32⟩
  | .hbm, ⟨7, _⟩ => ⟨S_, .f32⟩
  | .hbm, ⟨8, _⟩ => ⟨S32x288, .f32⟩
  | .hbm, ⟨9, _⟩ => ⟨S32x288x1, .f32⟩
  | .hbm, ⟨10, _⟩ => ⟨S32x288x1, .f32⟩
  | .hbm, ⟨11, _⟩ => ⟨S_, .f32⟩
  | .hbm, ⟨12, _⟩ => ⟨S32x288x1, .f32⟩
  | .hbm, ⟨13, _⟩ => ⟨S32x288x1, .f32⟩
  | .hbm, ⟨14, _⟩ => ⟨S32x288x2048, .f32⟩
  | .hbm, ⟨15, _⟩ => ⟨S32x288x2048, .f32⟩
  | .hbm, ⟨16, _⟩ => ⟨S32x288x288, .f32⟩
  | .hbm, ⟨17, _⟩ => ⟨S_, .f32⟩
  | .hbm, ⟨18, _⟩ => ⟨S32x288, .f32⟩
  | .hbm, ⟨19, _⟩ => ⟨S_, .f32⟩
  | .hbm, ⟨20, _⟩ => ⟨S32x288, .f32⟩
  | .hbm, ⟨21, _⟩ => ⟨S32x288, .f32⟩
  | .hbm, ⟨22, _⟩ => ⟨S32x288x1, .f32⟩
  | .hbm, ⟨23, _⟩ => ⟨S32x288x288, .f32⟩
  | .hbm, ⟨24, _⟩ => ⟨S32x288x288, .f32⟩
  | .hbm, ⟨25, _⟩ => ⟨S32x288x288, .f32⟩
  | .hbm, ⟨26, _⟩ => ⟨S_, .f32⟩
  | .hbm, ⟨27, _⟩ => ⟨S32x288, .f32⟩
  | .hbm, ⟨28, _⟩ => ⟨S32x288x1, .f32⟩
  | .hbm, ⟨29, _⟩ => ⟨S32x288x288, .f32⟩
  | .hbm, ⟨30, _⟩ => ⟨S32x288x288, .f32⟩
  | .hbm, ⟨31, _⟩ => ⟨S32x288x2048, .f32⟩
  | .hbm, ⟨32, _⟩ => ⟨S32x288x2048, .f32⟩
  | .hbm, ⟨33, _⟩ => ⟨S32x288x2048, .f32⟩
  | .hbm, ⟨34, _⟩ => ⟨S32x288x2048, .f32⟩
  | .hbm, ⟨35, _⟩ => ⟨S32x288x288, .f32⟩
  | .hbm, ⟨36, _⟩ => ⟨S_, .f32⟩
  | .hbm, ⟨37, _⟩ => ⟨S32x288x288, .f32⟩
  | .hbm, ⟨38, _⟩ => ⟨S32x288x288, .f32⟩
  | .hbm, ⟨39, _⟩ => ⟨S_, .f32⟩
  | .hbm, ⟨40, _⟩ => ⟨S32x288, .f32⟩
  | .hbm, ⟨41, _⟩ => ⟨S_, .f32⟩
  | .hbm, ⟨42, _⟩ => ⟨S32x288, .f32⟩
  | .hbm, ⟨43, _⟩ => ⟨S32x288, .f32⟩
  | .hbm, ⟨44, _⟩ => ⟨S32x288x1, .f32⟩
  | .hbm, ⟨45, _⟩ => ⟨S32x288x288, .f32⟩
  | .hbm, ⟨46, _⟩ => ⟨S32x288x288, .f32⟩
  | .hbm, ⟨47, _⟩ => ⟨S32x288x288, .f32⟩
  | .hbm, ⟨48, _⟩ => ⟨S_, .f32⟩
  | .hbm, ⟨49, _⟩ => ⟨S32x288, .f32⟩
  | .hbm, ⟨50, _⟩ => ⟨S32x288x1, .f32⟩
  | .hbm, ⟨51, _⟩ => ⟨S32x288x288, .f32⟩
  | .hbm, ⟨52, _⟩ => ⟨S32x288x288, .f32⟩
  | .hbm, ⟨53, _⟩ => ⟨S32x288x2048, .f32⟩
  | _, _ => ⟨S32x288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  reducesTo_S32x288x2048_S32x288_d2 : S32x288x2048.ReducesTo [2] S32x288
  h_S_ : 0 < S_.numel
  bcast_S32x288_S32x288x1_0_1 : S32x288.BroadcastsInDim S32x288x1 (![0, 1] : Fin 2 → Fin S32x288x1.rank)
  bcast_S_S32x288x1 : S_.BroadcastsInDim S32x288x1 (![] : Fin 0 → Fin S32x288x1.rank)
  bcast_S32x288x1_S32x288x2048_0_1_2 : S32x288x1.BroadcastsInDim S32x288x2048 (![0, 1, 2] : Fin 3 → Fin S32x288x2048.rank)
  reducesTo_S32x288x288_S32x288_d2 : S32x288x288.ReducesTo [2] S32x288
  bcast_S_S32x288 : S_.BroadcastsInDim S32x288 (![] : Fin 0 → Fin S32x288.rank)
  bcast_S32x288x1_S32x288x288_0_1_2 : S32x288x1.BroadcastsInDim S32x288x288 (![0, 1, 2] : Fin 3 → Fin S32x288x288.rank)
  bcast_S1x288x2048_S32x288x2048_0_1_2 : S1x288x2048.BroadcastsInDim S32x288x2048 (![0, 1, 2] : Fin 3 → Fin S32x288x2048.rank)
  bcast_S_S32x288x288 : S_.BroadcastsInDim S32x288x288 (![] : Fin 0 → Fin S32x288x288.rank)
  dot_S32x288x2048_S2048x2048_S32x288x2048_2_1_01_0_n_n_wf : DotDims.WF S32x288x2048 S2048x2048 S32x288x2048 [2] [1] [0, 1] [0] [] []
  dot_S32x288x2048_S32x288x2048_S32x288x288_2_2_1_1_0_0_wf : DotDims.WF S32x288x2048 S32x288x2048 S32x288x288 [2] [2] [1] [1] [0] [0]
  dot_S32x288x288_S32x288x2048_S32x288x2048_2_1_1_2_0_0_wf : DotDims.WF S32x288x288 S32x288x2048 S32x288x2048 [2] [1] [1] [2] [0] [0]

variable [Facts₀]

def dot_S32x288x2048_S2048x2048_S32x288x2048_2_1_01_0_n_n : DotDims S32x288x2048 S2048x2048 S32x288x2048 where
  lhsContracting := [2]
  rhsContracting := [1]
  lhsNonContracting := [0, 1]
  rhsNonContracting := [0]
  lhsBatch := []
  rhsBatch := []
  wf := dot_S32x288x2048_S2048x2048_S32x288x2048_2_1_01_0_n_n_wf
def dot_S32x288x2048_S32x288x2048_S32x288x288_2_2_1_1_0_0 : DotDims S32x288x2048 S32x288x2048 S32x288x288 where
  lhsContracting := [2]
  rhsContracting := [2]
  lhsNonContracting := [1]
  rhsNonContracting := [1]
  lhsBatch := [0]
  rhsBatch := [0]
  wf := dot_S32x288x2048_S32x288x2048_S32x288x288_2_2_1_1_0_0_wf
def dot_S32x288x288_S32x288x2048_S32x288x2048_2_1_1_2_0_0 : DotDims S32x288x288 S32x288x2048 S32x288x2048 where
  lhsContracting := [2]
  rhsContracting := [1]
  lhsNonContracting := [1]
  rhsNonContracting := [2]
  lhsBatch := [0]
  rhsBatch := [0]
  wf := dot_S32x288x288_S32x288x2048_S32x288x2048_2_1_1_2_0_0_wf

class Facts : Prop extends Facts₀ where

variable [Facts]
-- ==== Proof.Spec.lean ====
/-
  What both programs compute, for ONE batch entry, as functions of row and column coordinates over the extended
  reals. The inputs of a batch entry are three 288 × 2048 matrices — the queries `x`, the patch features `g` and the
  position table `pos` — and two 2048 × 2048 weight matrices `wq`, `wg` (row `d`, column `c`).

  1. Each row of `g` is divided by `max (‖row‖₂) ε` (`unitRow`), and the rows' pairwise inner products
     (`cosLogits`) go through a row softmax (`softmax`): the softmax of row `p` subtracts the row's maximum, taken from
     −∞, exponentiates, and divides by the row's sum.
  2. The softmax weights mix the rows of `g` itself (`mixed`); the position table is added and the sum projected by
     `wg` (`projG`), the queries by `wq` (`projQ`): entry (p, d) of a projection is the inner product of row `p` with
     row `d` of the weight matrix.
  3. The projections' pairwise inner products, times the scale literal, go through the same row softmax (`attn`),
     whose weights mix the rows of `mixed` (`out`).

  The two results of a batch entry are `out` (288 × 2048) and `attn` (288 × 288). No law of arithmetic is used to
  state them, so nothing here depends on the entries being finite.
-/
import Idealize.ShloMosaic.PureOps.Ideal
import Idealize.ShloMosaic.Lib.ValueIdx

noncomputable section

namespace Cert.Spec

open Idealize.ShloMosaic

/-- The float literals both programs carry, as the extended reals their words denote: the norm's floor
    (the single-precision word nearest 1e-12), the logits' scale (nearest 2048^(-1/2)), and −∞. -/
abbrev eps : EReal := Ideal.ofBits .f32 0x2B8CBCCC#32
abbrev scale : EReal := Ideal.ofBits .f32 0x3CB504F3#32
abbrev negInf : EReal := Ideal.ofBits .f32 0xFF800000#32

/-- A matrix as a function of its row and column. -/
abbrev Mat (r c : Nat) : Type := Fin r → Fin c → EReal

/-- The largest entry of row `p`, taken from −∞. -/
def rowMax (L : Mat 288 288) (p : Fin 288) : EReal :=
  (Finset.univ : Finset (Fin 288)).fold max negInf (fun q => L p q)

/-- The row softmax: `exp (L p q − max_p) / Σ_k exp (L p k − max_p)`. -/
def softmax (L : Mat 288 288) (p q : Fin 288) : EReal :=
  Ideal.div (Ideal.exp (L p q - rowMax L p)) (∑ k : Fin 288, Ideal.exp (L p k - rowMax L p))

/-- The length of row `p` of `g`, floored at ε. -/
def rowNorm (g : Mat 288 2048) (p : Fin 288) : EReal :=
  max (Ideal.sqrt (∑ c : Fin 2048, g p c * g p c)) eps

/-- Row `p` of `g` divided by its floored length. -/
def unitRow (g : Mat 288 2048) (p : Fin 288) (c : Fin 2048) : EReal :=
  Ideal.div (g p c) (rowNorm g p)

/-- The inner product of the normalized rows `p` and `q`. -/
def cosLogits (g : Mat 288 2048) (p q : Fin 288) : EReal :=
  ∑ c : Fin 2048, unitRow g p c * unitRow g q c

/-- The rows of `g` mixed by the softmax of their cosine similarities. -/
def mixed (g : Mat 288 2048) (p : Fin 288) (c : Fin 2048) : EReal :=
  ∑ q : Fin 288, softmax (cosLogits g) p q * g q c

/-- The queries projected: row `p` of `x` against row `d` of `wq`. -/
def projQ (x : Mat 288 2048) (wq : Mat 2048 2048) (p : Fin 288) (d : Fin 2048) : EReal :=
  ∑ c : Fin 2048, x p c * wq d c

/-- The mixed rows plus the position table, projected by `wg`. -/
def projG (g pos : Mat 288 2048) (wg : Mat 2048 2048) (p : Fin 288) (d : Fin 2048) : EReal :=
  ∑ c : Fin 2048, (mixed g p c + pos p c) * wg d c

/-- The scaled inner product of projected query row `p` and projected key row `k`. -/
def logits (x g pos : Mat 288 2048) (wq wg : Mat 2048 2048) (p k : Fin 288) : EReal :=
  (∑ d : Fin 2048, projQ x wq p d * projG g pos wg k d) * scale

/-- The second result: the softmax of the scaled logits. -/
def attn (x g pos : Mat 288 2048) (wq wg : Mat 2048 2048) : Mat 288 288 :=
  softmax (logits x g pos wq wg)

/-- The first result: the attention weights mixing the rows of `mixed`. -/
def out (x g pos : Mat 288 2048) (wq wg : Mat 2048 2048) (p : Fin 288) (c : Fin 2048) : EReal :=
  ∑ k : Fin 288, attn x g pos wq wg p k * mixed g k c

end Cert.Spec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelOps.lean ====
/-
  The kernel body's operations that are not pointwise, read at a coordinate index over the extended reals:
  a row sum is the sum of the row's entries, a row maximum the fold of `max` over them from −∞, and each of the three
  matrix products, accumulated into a zero matrix, the sum over the contracted coordinate of the operands' products —
  rows against rows for the two similarity products (both operands contracted on their columns), rows against columns
  for the mixing products and for the projection of one 512-column slice of a weight matrix.
-/
import proofs.«136536_j47201690583533_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Idealize.ShloMosaic Idealize.ShloMosaic.ValueIdx Cert.KernelIdeal Cert.KernelIdeal.Gen

/-- The sum of row `p` of a 288 × 2048 matrix. -/
theorem rowSum2048_apply (v : FVec Ideal S288x2048 .f32) (h : S288x2048.Reduces [1] S288)
    (hacc : (0x00000000#32 : BitVec 32) = 0x00000000#32) (p : Fin 288) :
    multiReduction .add [1] S288 v 0x00000000#32 h (.inl rfl) hacc (ix1 p) = ∑ c : Fin 2048, v (ix2 p c) := by
  refine (Ideal.multiReduction_add_single v _ h (.inl rfl) hacc (ix1 p)).trans ?_
  exact Finset.sum_congr rfl fun c _ => congrArg v (funext fun a => Fin.ext (by
    match a with | ⟨0, _⟩ => rfl | ⟨1, _⟩ => rfl))

/-- The sum of row `p` of a 288 × 288 matrix. -/
theorem rowSum288_apply (v : FVec Ideal S288x288 .f32) (h : S288x288.Reduces [1] S288)
    (hacc : (0x00000000#32 : BitVec 32) = 0x00000000#32) (p : Fin 288) :
    multiReduction .add [1] S288 v 0x00000000#32 h (.inl rfl) hacc (ix1 p) = ∑ q : Fin 288, v (ix2 p q) := by
  refine (Ideal.multiReduction_add_single v _ h (.inl rfl) hacc (ix1 p)).trans ?_
  exact Finset.sum_congr rfl fun c _ => congrArg v (funext fun a => Fin.ext (by
    match a with | ⟨0, _⟩ => rfl | ⟨1, _⟩ => rfl))

/-- The maximum of row `p` of a 288 × 288 matrix, taken from −∞. -/
theorem rowMax288_apply (v : FVec Ideal S288x288 .f32) (h : S288x288.Reduces [1] S288)
    (hacc : (0xFF800000#32 : BitVec 32) = 0xFF800000#32) (p : Fin 288) :
    multiReduction .maximumf [1] S288 v 0xFF800000#32 h (.inl rfl) hacc (ix1 p)
      = (Finset.univ : Finset (Fin 288)).fold max (Ideal.ofBits .f32 0xFF800000#32) (fun q => v (ix2 p q)) := by
  refine (Ideal.multiReduction_maximumf_single v _ h (.inl rfl) hacc (ix1 p)).trans ?_
  have hf : (v ∘ h.lift (ix1 p)) = fun q : Fin 288 => v (ix2 p q) := funext fun q => congrArg v (funext fun a => Fin.ext (by
    match a with | ⟨0, _⟩ => rfl | ⟨1, _⟩ => rfl))
  exact congrArg (fun f => Finset.fold max (Ideal.ofBits .f32 0xFF800000#32) f (Finset.univ : Finset (Fin 288))) hf

/-! The coordinates of the operand indices of each product: a kept axis carries the result's coordinate, the
contracted axis the summation coordinate. -/

theorem rr_lhs0 (j : S288x288.Idx) (k : dot_S288x2048_S288x2048_S288x288_1_1_0_0_n_n.contr.Idx) :
    (dot_S288x2048_S288x2048_S288x288_1_1_0_0_n_n.lhsIdx j k 0).val = (j 0).val := by
  unfold DotDims.lhsIdx
  rw [dif_neg (show ¬(0 : Fin S288x2048.rank) ∈ dot_S288x2048_S288x2048_S288x288_1_1_0_0_n_n.lhsBatch by decide), dif_pos (show (0 : Fin S288x2048.rank) ∈ dot_S288x2048_S288x2048_S288x288_1_1_0_0_n_n.lhsNonContracting by decide)]
  rfl

theorem rr_rhs0 (j : S288x288.Idx) (k : dot_S288x2048_S288x2048_S288x288_1_1_0_0_n_n.contr.Idx) :
    (dot_S288x2048_S288x2048_S288x288_1_1_0_0_n_n.rhsIdx j k 0).val = (j 1).val := by
  unfold DotDims.rhsIdx
  rw [dif_neg (show ¬(0 : Fin S288x2048.rank) ∈ dot_S288x2048_S288x2048_S288x288_1_1_0_0_n_n.rhsBatch by decide), dif_pos (show (0 : Fin S288x2048.rank) ∈ dot_S288x2048_S288x2048_S288x288_1_1_0_0_n_n.rhsNonContracting by decide)]
  rfl

theorem mix_lhs0 (j : S288x2048.Idx) (k : dot_S288x288_S288x2048_S288x2048_1_0_0_1_n_n.contr.Idx) :
    (dot_S288x288_S288x2048_S288x2048_1_0_0_1_n_n.lhsIdx j k 0).val = (j 0).val := by
  unfold DotDims.lhsIdx
  rw [dif_neg (show ¬(0 : Fin S288x288.rank) ∈ dot_S288x288_S288x2048_S288x2048_1_0_0_1_n_n.lhsBatch by decide), dif_pos (show (0 : Fin S288x288.rank) ∈ dot_S288x288_S288x2048_S288x2048_1_0_0_1_n_n.lhsNonContracting by decide)]
  rfl

theorem mix_rhs1 (j : S288x2048.Idx) (k : dot_S288x288_S288x2048_S288x2048_1_0_0_1_n_n.contr.Idx) :
    (dot_S288x288_S288x2048_S288x2048_1_0_0_1_n_n.rhsIdx j k 1).val = (j 1).val := by
  unfold DotDims.rhsIdx
  rw [dif_neg (show ¬(1 : Fin S288x2048.rank) ∈ dot_S288x288_S288x2048_S288x2048_1_0_0_1_n_n.rhsBatch by decide), dif_pos (show (1 : Fin S288x2048.rank) ∈ dot_S288x288_S288x2048_S288x2048_1_0_0_1_n_n.rhsNonContracting by decide)]
  rfl

theorem sl_lhs0 (j : S288x512.Idx) (k : dot_S288x2048_S2048x512_S288x512_1_0_0_1_n_n.contr.Idx) :
    (dot_S288x2048_S2048x512_S288x512_1_0_0_1_n_n.lhsIdx j k 0).val = (j 0).val := by
  unfold DotDims.lhsIdx
  rw [dif_neg (show ¬(0 : Fin S288x2048.rank) ∈ dot_S288x2048_S2048x512_S288x512_1_0_0_1_n_n.lhsBatch by decide), dif_pos (show (0 : Fin S288x2048.rank) ∈ dot_S288x2048_S2048x512_S288x512_1_0_0_1_n_n.lhsNonContracting by decide)]
  rfl

theorem sl_rhs1 (j : S288x512.Idx) (k : dot_S288x2048_S2048x512_S288x512_1_0_0_1_n_n.contr.Idx) :
    (dot_S288x2048_S2048x512_S288x512_1_0_0_1_n_n.rhsIdx j k 1).val = (j 1).val := by
  unfold DotDims.rhsIdx
  rw [dif_neg (show ¬(1 : Fin S2048x512.rank) ∈ dot_S288x2048_S2048x512_S288x512_1_0_0_1_n_n.rhsBatch by decide), dif_pos (show (1 : Fin S2048x512.rank) ∈ dot_S288x2048_S2048x512_S288x512_1_0_0_1_n_n.rhsNonContracting by decide)]
  rfl

/-- Rows against rows: entry (p, q) of `a · bᵀ` is the inner product of row `p` of `a` and row `q` of `b`. -/
theorem matmulRowsRows_apply (a b : FVec Ideal S288x2048 .bf16) (p q : Fin 288) :
    matmul dot_S288x2048_S288x2048_S288x288_1_1_0_0_n_n none a b (constant S288x288 .f32 0x00000000#32) (ix2 p q)
      = ∑ c : Fin 2048, a (ix2 p c) * b (ix2 q c) := by
  simp only [matmul]
  rw [Ideal.matmul_constant_zero_apply, ← Equiv.sum_comp (contrEquiv1 dot_S288x2048_S288x2048_S288x288_1_1_0_0_n_n 2048 rfl rfl).symm]
  refine Finset.sum_congr rfl fun k _ => ?_
  have hk := contrEquiv1_symm_val dot_S288x2048_S288x2048_S288x288_1_1_0_0_n_n 2048 rfl rfl k
  have el : dot_S288x2048_S288x2048_S288x288_1_1_0_0_n_n.lhsIdx (ix2 p q) ((contrEquiv1 dot_S288x2048_S288x2048_S288x288_1_1_0_0_n_n 2048 rfl rfl).symm k) = ix2 p k := funext fun ax => Fin.ext (by
    match ax with
    | ⟨0, _⟩ => exact rr_lhs0 _ _
    | ⟨1, _⟩ => exact (dot_S288x2048_S288x2048_S288x288_1_1_0_0_n_n.lhsIdx_val_of_single rfl _ _).trans hk)
  have er : dot_S288x2048_S288x2048_S288x288_1_1_0_0_n_n.rhsIdx (ix2 p q) ((contrEquiv1 dot_S288x2048_S288x2048_S288x288_1_1_0_0_n_n 2048 rfl rfl).symm k) = ix2 q k := funext fun ax => Fin.ext (by
    match ax with
    | ⟨0, _⟩ => exact rr_rhs0 _ _
    | ⟨1, _⟩ => exact (dot_S288x2048_S288x2048_S288x288_1_1_0_0_n_n.rhsIdx_val_of_single rfl _ _).trans hk)
  rw [el, er]

/-- Rows against columns: entry (p, c) of `a · b` for a 288 × 288 matrix `a` and a 288 × 2048 matrix `b`. -/
theorem matmulMix_apply (a : FVec Ideal S288x288 .bf16) (b : FVec Ideal S288x2048 .bf16) (p : Fin 288) (c : Fin 2048) :
    matmul dot_S288x288_S288x2048_S288x2048_1_0_0_1_n_n none a b (constant S288x2048 .f32 0x00000000#32) (ix2 p c)
      = ∑ q : Fin 288, a (ix2 p q) * b (ix2 q c) := by
  simp only [matmul]
  rw [Ideal.matmul_constant_zero_apply, ← Equiv.sum_comp (contrEquiv1 dot_S288x288_S288x2048_S288x2048_1_0_0_1_n_n 288 rfl rfl).symm]
  refine Finset.sum_congr rfl fun k _ => ?_
  have hk := contrEquiv1_symm_val dot_S288x288_S288x2048_S288x2048_1_0_0_1_n_n 288 rfl rfl k
  have el : dot_S288x288_S288x2048_S288x2048_1_0_0_1_n_n.lhsIdx (ix2 p c) ((contrEquiv1 dot_S288x288_S288x2048_S288x2048_1_0_0_1_n_n 288 rfl rfl).symm k) = ix2 p k := funext fun ax => Fin.ext (by
    match ax with
    | ⟨0, _⟩ => exact mix_lhs0 _ _
    | ⟨1, _⟩ => exact (dot_S288x288_S288x2048_S288x2048_1_0_0_1_n_n.lhsIdx_val_of_single rfl _ _).trans hk)
  have er : dot_S288x288_S288x2048_S288x2048_1_0_0_1_n_n.rhsIdx (ix2 p c) ((contrEquiv1 dot_S288x288_S288x2048_S288x2048_1_0_0_1_n_n 288 rfl rfl).symm k) = ix2 k c := funext fun ax => Fin.ext (by
    match ax with
    | ⟨0, _⟩ => exact (dot_S288x288_S288x2048_S288x2048_1_0_0_1_n_n.rhsIdx_val_of_single rfl _ _).trans hk
    | ⟨1, _⟩ => exact mix_rhs1 _ _)
  rw [el, er]

/-- Rows against columns of a 512-column slice: entry (p, d) of `a · w` for a 288 × 2048 matrix `a` and a
    2048 × 512 matrix `w`. -/
theorem matmulSlice_apply (a : FVec Ideal S288x2048 .bf16) (w : FVec Ideal S2048x512 .bf16) (p : Fin 288) (d : Fin 512) :
    matmul dot_S288x2048_S2048x512_S288x512_1_0_0_1_n_n none a w (constant S288x512 .f32 0x00000000#32) (ix2 p d)
      = ∑ c : Fin 2048, a (ix2 p c) * w (ix2 c d) := by
  simp only [matmul]
  rw [Ideal.matmul_constant_zero_apply, ← Equiv.sum_comp (contrEquiv1 dot_S288x2048_S2048x512_S288x512_1_0_0_1_n_n 2048 rfl rfl).symm]
  refine Finset.sum_congr rfl fun k _ => ?_
  have hk := contrEquiv1_symm_val dot_S288x2048_S2048x512_S288x512_1_0_0_1_n_n 2048 rfl rfl k
  have el : dot_S288x2048_S2048x512_S288x512_1_0_0_1_n_n.lhsIdx (ix2 p d) ((contrEquiv1 dot_S288x2048_S2048x512_S288x512_1_0_0_1_n_n 2048 rfl rfl).symm k) = ix2 p k := funext fun ax => Fin.ext (by
    match ax with
    | ⟨0, _⟩ => exact sl_lhs0 _ _
    | ⟨1, _⟩ => exact (dot_S288x2048_S2048x512_S288x512_1_0_0_1_n_n.lhsIdx_val_of_single rfl _ _).trans hk)
  have er : dot_S288x2048_S2048x512_S288x512_1_0_0_1_n_n.rhsIdx (ix2 p d) ((contrEquiv1 dot_S288x2048_S2048x512_S288x512_1_0_0_1_n_n 2048 rfl rfl).symm k) = ix2 k d := funext fun ax => Fin.ext (by
    match ax with
    | ⟨0, _⟩ => exact (dot_S288x2048_S2048x512_S288x512_1_0_0_1_n_n.rhsIdx_val_of_single rfl _ _).trans hk
    | ⟨1, _⟩ => exact sl_rhs1 _ _)
  rw [el, er]

end Cert.KernelIdeal.Ops

end
-- ==== Proof.KernelPay.lean ====
/-
  The kernel body's arithmetic, one batch entry, read at row and column coordinates onto the specification.
  The body's pure terms between its loads and stores are restated here as four small compositions of the same
  operations — `normalizeK` (a matrix's rows over their floored lengths), `softmaxK` (the row softmax of a square
  matrix), `mixedK` (the similarity softmax mixing the rows) and `attnK` (the scaled logits' softmax) — and each is
  the specification's function of the operand's entries: every operation is pointwise, a layout change that keeps the
  entry, a row sum, a row maximum or a matrix product, and a change of float format is the identity on the extended
  reals.
-/
import proofs.«136536_j47201690583533_2_alg».proof.Proof.Gen.KernelIdeal.Skeleton
import proofs.«136536_j47201690583533_2_alg».proof.Proof.Spec
import proofs.«136536_j47201690583533_2_alg».proof.Proof.LibKeepdims
import proofs.«136536_j47201690583533_2_alg».proof.Proof.KernelOps

noncomputable section

namespace Cert.KernelIdeal.Pay

open Idealize.ShloMosaic Idealize.ShloMosaic.ValueIdx Cert.KernelIdeal Cert.KernelIdeal.Gen Cert.KernelIdeal.Ops Cert.Keepdims

/-- A 288 × 2048 vector value as a matrix of its entries; likewise a square one. -/
abbrev mat {φ : FTy} (v : FVec Ideal S288x2048 φ) : Spec.Mat 288 2048 := fun p c => v (ix2 p c)
abbrev sqm {φ : FTy} (L : FVec Ideal S288x288 φ) : Spec.Mat 288 288 := fun p q => L (ix2 p q)

theorem sqrt_apply {s : Shape} (v : FVec Ideal s .f32) (i : s.Idx) : sqrt v i = Ideal.sqrt (v i) := rfl
theorem exp_apply {s : Shape} (v : FVec Ideal s .f32) (i : s.Idx) : exp v i = Ideal.exp (v i) := rfl

/-! ## The compositions -/

/-- Each row divided by `max (√(Σ squares)) ε`, the row's length kept as a column and laid along the row. -/
def normalizeK (g : FVec Ideal S288x2048 .f32) : FVec Ideal S288x2048 .f32 :=
  divf g (broadcastTo S288x2048 (maximumf (sqrt (shapeCast S288x1 (multiReduction .add [1] S288 (mulf g g) 0x00000000#32 reduces_S288x2048_S288 (.inl rfl) rfl) shapeCasts_S288_S288x1)) (broadcast S288x1 (Scalar.ofBits .f32 0x2B8CBCCC#32))) broadcasts_S288x1_S288x2048)

/-- The row maximum, kept as a column and laid along the row. -/
def rowMaxK (L : FVec Ideal S288x288 .f32) : FVec Ideal S288x288 .f32 :=
  broadcastTo S288x288 (shapeCast S288x1 (multiReduction .maximumf [1] S288 L 0xFF800000#32 reduces_S288x288_S288 (.inl rfl) rfl) shapeCasts_S288_S288x1) broadcasts_S288x1_S288x288

/-- The row sum, kept as a column and laid along the row. -/
def rowSumK (E : FVec Ideal S288x288 .f32) : FVec Ideal S288x288 .f32 :=
  broadcastTo S288x288 (shapeCast S288x1 (multiReduction .add [1] S288 E 0x00000000#32 reduces_S288x288_S288 (.inl rfl) rfl) shapeCasts_S288_S288x1) broadcasts_S288x1_S288x288

/-- The row softmax. -/
def softmaxK (L : FVec Ideal S288x288 .f32) : FVec Ideal S288x288 .f32 :=
  divf (exp (subf L (rowMaxK L))) (rowSumK (exp (subf L (rowMaxK L))))

/-- The rows mixed by the softmax of the normalized rows' inner products. -/
def mixedK (g : FVec Ideal S288x2048 .f32) : FVec Ideal S288x2048 .f32 :=
  matmul dot_S288x288_S288x2048_S288x2048_1_0_0_1_n_n none
    (truncf .bf16 (softmaxK (matmul dot_S288x2048_S288x2048_S288x288_1_1_0_0_n_n none (truncf .bf16 (normalizeK g) bitsLt_bf16_f32) (truncf .bf16 (normalizeK g) bitsLt_bf16_f32) (constant S288x288 .f32 0x00000000#32))) bitsLt_bf16_f32)
    (truncf .bf16 g bitsLt_bf16_f32) (constant S288x2048 .f32 0x00000000#32)

/-- The softmax of the two projections' inner products times the scale. -/
def attnK (rq rg : FVec Ideal S288x2048 .bf16) : FVec Ideal S288x288 .f32 :=
  softmaxK (mulf (matmul dot_S288x2048_S288x2048_S288x288_1_1_0_0_n_n none rq rg (constant S288x288 .f32 0x00000000#32)) (broadcast S288x288 (Scalar.ofBits .f32 0x3CB504F3#32)))

/-! ## The generated payloads are these compositions -/

theorem pay4_eq (v2 : Vec Ideal S1x288x2048 .f32) :
    k0_pay4 v2 = mixedK (shapeCast S288x2048 v2 shapeCasts_S1x288x2048_S288x2048) := rfl

theorem pay16_eq (v89 v90 : Vec Ideal S288x2048 .bf16) : k0_pay16 v89 v90 = attnK v89 v90 := rfl

/-! ## Read at coordinates -/

theorem normalizeK_apply (g : FVec Ideal S288x2048 .f32) (p : Fin 288) (c : Fin 2048) :
    normalizeK g (ix2 p c) = Spec.unitRow (mat g) p c := by
  unfold normalizeK Spec.unitRow Spec.rowNorm
  rw [divf_apply, broadcastTo_a1_ab_apply, maximumf_apply, sqrt_apply, shapeCast_a_a1_apply, rowSum2048_apply]
  rfl

theorem rowMaxK_apply (L : FVec Ideal S288x288 .f32) (p q : Fin 288) :
    rowMaxK L (ix2 p q) = Spec.rowMax (sqm L) p := by
  unfold rowMaxK Spec.rowMax
  rw [broadcastTo_a1_ab_apply, shapeCast_a_a1_apply, rowMax288_apply]

theorem rowSumK_apply (E : FVec Ideal S288x288 .f32) (p q : Fin 288) :
    rowSumK E (ix2 p q) = ∑ k : Fin 288, E (ix2 p k) := by
  unfold rowSumK
  rw [broadcastTo_a1_ab_apply, shapeCast_a_a1_apply, rowSum288_apply]

theorem softmaxK_apply (L : FVec Ideal S288x288 .f32) (p q : Fin 288) :
    softmaxK L (ix2 p q) = Spec.softmax (sqm L) p q := by
  unfold softmaxK Spec.softmax
  rw [divf_apply, exp_apply, subf_apply, rowSumK_apply, rowMaxK_apply]
  refine congrArg (Ideal.div _) (Finset.sum_congr rfl fun k _ => ?_)
  rw [exp_apply, subf_apply, rowMaxK_apply]

theorem mixedK_apply (g : FVec Ideal S288x2048 .f32) (p : Fin 288) (c : Fin 2048) :
    mixedK g (ix2 p c) = Spec.mixed (mat g) p c := by
  unfold mixedK Spec.mixed
  rw [matmulMix_apply]
  refine Finset.sum_congr rfl fun q _ => ?_
  rw [truncf_apply, truncf_apply, softmaxK_apply]
  refine congrArg (fun L => Spec.softmax L p q * g (ix2 q c)) ?_
  funext p' q'
  refine (matmulRowsRows_apply _ _ p' q').trans ?_
  unfold Spec.cosLogits
  refine Finset.sum_congr rfl fun c' _ => ?_
  simp only [truncf_apply, normalizeK_apply]

theorem attnK_apply (rq rg : FVec Ideal S288x2048 .bf16) (p k : Fin 288) :
    attnK rq rg (ix2 p k)
      = Spec.softmax (fun p k => (∑ d : Fin 2048, rq (ix2 p d) * rg (ix2 k d)) * Spec.scale) p k := by
  unfold attnK
  rw [softmaxK_apply]
  refine congrArg (fun L => Spec.softmax L p k) ?_
  funext p' k'
  refine (mulf_apply _ _ (ix2 p' k')).trans ?_
  rw [matmulRowsRows_apply, broadcast_apply]
  rfl

end Cert.KernelIdeal.Pay

end
-- ==== Proof.KernelBlock.lean ====
/-
  What the kernel body leaves in its two output blocks, one batch entry, as pure terms of its five input blocks.
  The body keeps three intermediate matrices in scratch buffers. The mixed rows are stored whole and read back
  whole. Each of the two projections is stored as four slices of 512 columns — slice `j` is the operand times
  columns `512 j … 512 j + 511` of the weight matrix — and read back whole: entry (p, d) of what is read is the inner
  product of row `p` of the operand with column `d` of the whole weight matrix (`projK`), because every slice is a
  block of that one function and the four slices tile the buffer.
-/
import proofs.«136536_j47201690583533_2_alg».proof.Proof.Gen.KernelIdeal.Frame
import proofs.«136536_j47201690583533_2_alg».proof.Proof.KernelPay

set_option maxRecDepth 16384

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Ops Cert.KernelIdeal.Pay

theorem hz2 : (![0, 0] : Fin 2 → ℕ) = fun _ => 0 := by funext a; fin_cases a <;> rfl
theorem hz3 : (![0, 0, 0] : Fin 3 → ℕ) = fun _ => 0 := by funext a; fin_cases a <;> rfl

/-- A 288 × 2048 operand times a whole 2048 × 2048 weight matrix: entry (p, d) is row `p` against column `d`. -/
def projK (a : FVec Ideal S288x2048 .bf16) (w : Vec Ideal S2048x2048 .bf16) : Vec Ideal S288x2048 .bf16 :=
  fun y => ∑ c : Fin 2048, a (ix2 (y 0) c) * w (ix2 c (y 1))

/-- The operand times one 512-column slice of the weight matrix, as the body computes it before each store. -/
def sliceK (a : FVec Ideal S288x2048 .bf16) (ws : FVec Ideal S2048x512 .bf16) : FVec Ideal S288x512 .bf16 :=
  shapeCast S288x512 (truncf .bf16 (matmul dot_S288x2048_S2048x512_S288x512_1_0_0_1_n_n none a (shapeCast S2048x512 ws shapeCasts_S2048x512_S2048x512) (constant S288x512 .f32 0x00000000#32)) bitsLt_bf16_f32) shapeCasts_S288x512_S288x512

theorem sliceK_apply (a : FVec Ideal S288x2048 .bf16) (ws : FVec Ideal S2048x512 .bf16) (p : Fin 288) (d : Fin 512) :
    sliceK a ws (ix2 p d) = ∑ c : Fin 2048, a (ix2 p c) * ws (ix2 c d) := by
  unfold sliceK
  rw [shapeCast_self, truncf_apply, matmulSlice_apply, shapeCast_self]

/-- The slice at column offset `s` is the block of the whole projection under its rectangle. -/
theorem slice_piece (a : FVec Ideal S288x2048 .bf16) (w : Vec Ideal S2048x2048 .bf16) (s : ℕ)
    (inbW : ∀ ax, (![0, s] : Fin 2 → ℕ) ax + S2048x512.size ax ≤ S2048x2048.size ax)
    (inbO : ∀ ax, (![0, s] : Fin 2 → ℕ) ax + S288x512.size ax ≤ S288x2048.size ax) (x : S288x512.Idx) :
    sliceK a (View.ld w (Rect.unit (s := S2048x2048) ![0, s] S2048x512.size inbW)) x
      = projK a w ((Rect.unit (s := S288x2048) ![0, s] S288x512.size inbO).emb x) := by
  obtain ⟨p, d, rfl⟩ : ∃ (p : Fin 288) (d : Fin 512), x = ix2 p d := ⟨x 0, x 1, eq_ix2 x⟩
  refine (sliceK_apply a _ p d).trans ?_
  unfold projK
  refine Finset.sum_congr rfl fun c _ => congrArg₂ (· * ·) (congrArg a ?_) (congrArg w ?_)
  · funext ax
    match ax with
    | ⟨0, _⟩ => exact Fin.ext (by show p.val = 0 + 1 * p.val; omega)
    | ⟨1, _⟩ => rfl
  · funext ax
    match ax with
    | ⟨0, _⟩ => exact Fin.ext (by show 0 + 1 * c.val = c.val; omega)
    | ⟨1, _⟩ => rfl

/-- The four slice stores of a projection, last first. -/
def pieces (a : FVec Ideal S288x2048 .bf16) (w : Vec Ideal S2048x2048 .bf16) : List (View.Piece (Elt Ideal) S288x2048 .bf16) :=
  [(⟨Rect.unit ![0, 1536] S288x512.size inb_S288x2048_S288x512_0_1536, sliceK a (View.ld w (Rect.unit ![0, 1536] S2048x512.size inb_S2048x2048_S2048x512_0_1536))⟩ : View.Piece (Elt Ideal) S288x2048 .bf16),
     (⟨Rect.unit ![0, 1024] S288x512.size inb_S288x2048_S288x512_0_1024, sliceK a (View.ld w (Rect.unit ![0, 1024] S2048x512.size inb_S2048x2048_S2048x512_0_1024))⟩ : View.Piece (Elt Ideal) S288x2048 .bf16),
     (⟨Rect.unit ![0, 512] S288x512.size inb_S288x2048_S288x512_0_512, sliceK a (View.ld w (Rect.unit ![0, 512] S2048x512.size inb_S2048x2048_S2048x512_0_512))⟩ : View.Piece (Elt Ideal) S288x2048 .bf16),
     (⟨Rect.unit ![0, 0] S288x512.size inb_S288x2048_S288x512_0_0, sliceK a (View.ld w (Rect.unit ![0, 0] S2048x512.size inb_S2048x2048_S2048x512_0_0))⟩ : View.Piece (Elt Ideal) S288x2048 .bf16)]

/-- The four 288 × 512 slices tile the 288 × 2048 buffer. -/
theorem pieces_cover (a : FVec Ideal S288x2048 .bf16) (w : Vec Ideal S2048x2048 .bf16) :
    ∀ y : S288x2048.Idx, ∃ p ∈ pieces a w, y ∈ p.1.set :=
  View.cover_of_tiledL (pieces a w) S288x512.size (by sl_kernel_rfl)

/-- The four slice stores read back whole are the whole projection. -/
theorem scratch_read (v : View sig .tc .vmem S288x2048 .bf16) (a : FVec Ideal S288x2048 .bf16) (w : Vec Ideal S2048x2048 .bf16) :
    v.readCov (pieces a w) (Rect.unit ![0, 0] S288x2048.size inb_S288x2048_S288x2048_0_0).toLoadRect = projK a w := by
  rw [View.readCov_eq_canon_ld v (pieces a w) _ (pieces_cover a w), View.ld_unit_zero hz2]
  funext y
  refine View.canon_apply_of_pieces (projK a w) (pieces a w) ?_ y (pieces_cover a w y)
  intro pc hpc
  simp only [pieces, List.mem_cons, List.not_mem_nil, or_false] at hpc
  rcases hpc with rfl | rfl | rfl | rfl
  · intro x; exact slice_piece a w 1536 inb_S2048x2048_S2048x512_0_1536 inb_S288x2048_S288x512_0_1536 x
  · intro x; exact slice_piece a w 1024 inb_S2048x2048_S2048x512_0_1024 inb_S288x2048_S288x512_0_1024 x
  · intro x; exact slice_piece a w 512 inb_S2048x2048_S2048x512_0_512 inb_S288x2048_S288x512_0_512 x
  · intro x; exact slice_piece a w 0 inb_S2048x2048_S2048x512_0_0 inb_S288x2048_S288x512_0_0 x

/-- The queries' scratch buffer, with the four stored values as the body computes them. -/
theorem scratchQ_read (v : View sig .tc .vmem S288x2048 .bf16) (x0 : Vec Ideal S1x288x2048 .bf16) (x3 : Vec Ideal S2048x2048 .bf16) :
    v.readCov
      [(⟨Rect.unit ![0, 1536] S288x512.size inb_S288x2048_S288x512_0_1536, k0_pay14 (k0_pay3 x0) (View.ld x3 (Rect.unit ![0, 1536] S2048x512.size inb_S2048x2048_S2048x512_0_1536))⟩ : View.Piece (Elt Ideal) S288x2048 .bf16),
     (⟨Rect.unit ![0, 1024] S288x512.size inb_S288x2048_S288x512_0_1024, k0_pay12 (k0_pay3 x0) (View.ld x3 (Rect.unit ![0, 1024] S2048x512.size inb_S2048x2048_S2048x512_0_1024))⟩ : View.Piece (Elt Ideal) S288x2048 .bf16),
     (⟨Rect.unit ![0, 512] S288x512.size inb_S288x2048_S288x512_0_512, k0_pay10 (k0_pay3 x0) (View.ld x3 (Rect.unit ![0, 512] S2048x512.size inb_S2048x2048_S2048x512_0_512))⟩ : View.Piece (Elt Ideal) S288x2048 .bf16),
     (⟨Rect.unit ![0, 0] S288x512.size inb_S288x2048_S288x512_0_0, k0_pay8 (k0_pay7 x0 (View.ld x3 (Rect.unit ![0, 0] S2048x512.size inb_S2048x2048_S2048x512_0_0)))⟩ : View.Piece (Elt Ideal) S288x2048 .bf16)]
      (Rect.unit ![0, 0] S288x2048.size inb_S288x2048_S288x2048_0_0).toLoadRect = projK (k0_pay3 x0) x3 :=
  scratch_read v (k0_pay3 x0) x3

/-- The keys' scratch buffer likewise. -/
theorem scratchG_read (v : View sig .tc .vmem S288x2048 .bf16) (x1 x2 : Vec Ideal S1x288x2048 .f32) (x4 : Vec Ideal S2048x2048 .bf16) :
    v.readCov
      [(⟨Rect.unit ![0, 1536] S288x512.size inb_S288x2048_S288x512_0_1536, k0_pay15 (k0_pay6 x1 x2) (View.ld x4 (Rect.unit ![0, 1536] S2048x512.size inb_S2048x2048_S2048x512_0_1536))⟩ : View.Piece (Elt Ideal) S288x2048 .bf16),
     (⟨Rect.unit ![0, 1024] S288x512.size inb_S288x2048_S288x512_0_1024, k0_pay13 (k0_pay6 x1 x2) (View.ld x4 (Rect.unit ![0, 1024] S2048x512.size inb_S2048x2048_S2048x512_0_1024))⟩ : View.Piece (Elt Ideal) S288x2048 .bf16),
     (⟨Rect.unit ![0, 512] S288x512.size inb_S288x2048_S288x512_0_512, k0_pay11 (k0_pay6 x1 x2) (View.ld x4 (Rect.unit ![0, 512] S2048x512.size inb_S2048x2048_S2048x512_0_512))⟩ : View.Piece (Elt Ideal) S288x2048 .bf16),
     (⟨Rect.unit ![0, 0] S288x512.size inb_S288x2048_S288x512_0_0, k0_pay9 (k0_pay6 x1 x2) (View.ld x4 (Rect.unit ![0, 0] S2048x512.size inb_S2048x2048_S2048x512_0_0))⟩ : View.Piece (Elt Ideal) S288x2048 .bf16)]
      (Rect.unit ![0, 0] S288x2048.size inb_S288x2048_S288x2048_0_0).toLoadRect = projK (k0_pay6 x1 x2) x4 :=
  scratch_read v (k0_pay6 x1 x2) x4

/-! ## The output blocks -/

/-- The second output's block: the softmax of the scaled logits of the two projections read back from scratch. -/
theorem out6_eq (c : Dev nD) (i : grid0.Coords) (arg1 : Memref sig .tc .vmem S1x288x2048 .bf16) (harg1 : arg1.IsWhole) (arg2 : Memref sig .tc .vmem S1x288x2048 .f32) (harg2 : arg2.IsWhole) (arg3 : Memref sig .tc .vmem S1x288x2048 .f32) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S1x288x2048 .f32) (harg6 : arg6.IsWhole) (arg7 : Memref sig .tc .vmem S1x288x288 .f32) (harg7 : arg7.IsWhole) (arg8 : Memref sig .tc .vmem S288x2048 .f32) (harg8 : arg8.IsWhole) (arg9 : Memref sig .tc .vmem S288x2048 .bf16) (harg9 : arg9.IsWhole) (arg10 : Memref sig .tc .vmem S288x2048 .bf16) (harg10 : arg10.IsWhole)
    (x0 : Vec Ideal S1x288x2048 .bf16) (x1 : Vec Ideal S1x288x2048 .f32) (x2 : Vec Ideal S1x288x2048 .f32) (x3 : Vec Ideal S2048x2048 .bf16) (x4 : Vec Ideal S2048x2048 .bf16) :
    out0_A_6 c i arg1 harg1 arg2 harg2 arg3 harg3 arg4 harg4 arg5 harg5 arg6 harg6 arg7 harg7 arg8 harg8 arg9 harg9 arg10 harg10 x0 x1 x2 x3 x4
      = k0_pay2 (k0_pay16 (projK (k0_pay3 x0) x3) (projK (k0_pay6 x1 x2) x4)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1x288x2048) hz3]
  rw [scratchQ_read, scratchG_read]

/-- The first output's block: those attention weights mixing the rows read back from the first scratch buffer. -/
theorem out5_eq (c : Dev nD) (i : grid0.Coords) (arg1 : Memref sig .tc .vmem S1x288x2048 .bf16) (harg1 : arg1.IsWhole) (arg2 : Memref sig .tc .vmem S1x288x2048 .f32) (harg2 : arg2.IsWhole) (arg3 : Memref sig .tc .vmem S1x288x2048 .f32) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S1x288x2048 .f32) (harg6 : arg6.IsWhole) (arg7 : Memref sig .tc .vmem S1x288x288 .f32) (harg7 : arg7.IsWhole) (arg8 : Memref sig .tc .vmem S288x2048 .f32) (harg8 : arg8.IsWhole) (arg9 : Memref sig .tc .vmem S288x2048 .bf16) (harg9 : arg9.IsWhole) (arg10 : Memref sig .tc .vmem S288x2048 .bf16) (harg10 : arg10.IsWhole)
    (x0 : Vec Ideal S1x288x2048 .bf16) (x1 : Vec Ideal S1x288x2048 .f32) (x2 : Vec Ideal S1x288x2048 .f32) (x3 : Vec Ideal S2048x2048 .bf16) (x4 : Vec Ideal S2048x2048 .bf16) :
    out0_A_5 c i arg1 harg1 arg2 harg2 arg3 harg3 arg4 harg4 arg5 harg5 arg6 harg6 arg7 harg7 arg8 harg8 arg9 harg9 arg10 harg10 x0 x1 x2 x3 x4
      = k0_pay1 (k0_pay17 (projK (k0_pay3 x0) x3) (projK (k0_pay6 x1 x2) x4)) (k0_pay5 x1) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1x288x2048) hz3]
  rw [scratchQ_read, scratchG_read, View.readCov_unit_zero _ hz2]

end Cert.KernelIdeal.Block

end
-- ==== Proof.KernelBlockValue.lean ====
/-
  The two output blocks of one batch entry, read at coordinates, are the specification's two results of the entries
  of the five input blocks: the query block, the feature block and the position block as 288 × 2048 matrices (their
  unit leading axis dropped), the two weight blocks — which the kernel is handed TRANSPOSED, entry (c, d) of the
  block being entry (d, c) of the weight matrix — read back as weight matrices.
-/
import proofs.«136536_j47201690583533_2_alg».proof.Proof.KernelBlock

noncomputable section

namespace Cert.KernelIdeal.BlockValue

open Idealize.ShloMosaic Idealize.ShloMosaic.ValueIdx
open Cert.KernelIdeal Cert.KernelIdeal.Gen Cert.KernelIdeal.Ops Cert.KernelIdeal.Pay Cert.KernelIdeal.Block

/-- A 1 × 288 × 2048 block as the matrix of its entries. -/
abbrev blk (v : S1x288x2048.Idx → EReal) : Spec.Mat 288 2048 := fun p c => v (ix3 (0 : Fin 1) p c)
/-- A transposed weight block read back as the weight matrix: row `d`, column `c`. -/
abbrev wT (w : S2048x2048.Idx → EReal) : Spec.Mat 2048 2048 := fun d c => w (ix2 c d)

theorem squeeze_mat (v : Vec Ideal S1x288x2048 .f32) :
    mat (φ := .f32) (shapeCast S288x2048 v shapeCasts_S1x288x2048_S288x2048) = blk v :=
  funext fun p => funext fun c => shapeCast_1ab_ab_apply v _ p c

theorem pay3_apply (x0 : Vec Ideal S1x288x2048 .bf16) (p : Fin 288) (c : Fin 2048) :
    k0_pay3 x0 (ix2 p c) = x0 (ix3 (0 : Fin 1) p c) := shapeCast_1ab_ab_apply x0 _ p c

theorem pay4_apply (x1 : Vec Ideal S1x288x2048 .f32) (p : Fin 288) (c : Fin 2048) :
    k0_pay4 x1 (ix2 p c) = Spec.mixed (blk x1) p c := by
  rw [pay4_eq, mixedK_apply, squeeze_mat]

theorem pay6_apply (x1 x2 : Vec Ideal S1x288x2048 .f32) (p : Fin 288) (c : Fin 2048) :
    k0_pay6 x1 x2 (ix2 p c) = Spec.mixed (blk x1) p c + x2 (ix3 (0 : Fin 1) p c) := by
  show truncf .bf16 (addf (k0_pay4 x1) (shapeCast S288x2048 x2 shapeCasts_S1x288x2048_S288x2048)) bitsLt_bf16_f32 (ix2 p c) = _
  rw [truncf_apply, addf_apply, pay4_apply, shapeCast_1ab_ab_apply]

theorem projQ_apply (x0 : Vec Ideal S1x288x2048 .bf16) (x3 : Vec Ideal S2048x2048 .bf16) (p : Fin 288) (d : Fin 2048) :
    projK (k0_pay3 x0) x3 (ix2 p d) = Spec.projQ (blk x0) (wT x3) p d := by
  unfold projK Spec.projQ
  refine Finset.sum_congr rfl fun c _ => ?_
  show k0_pay3 x0 (ix2 p c) * x3 (ix2 c d) = _
  rw [pay3_apply]

theorem projG_apply (x1 x2 : Vec Ideal S1x288x2048 .f32) (x4 : Vec Ideal S2048x2048 .bf16) (p : Fin 288) (d : Fin 2048) :
    projK (k0_pay6 x1 x2) x4 (ix2 p d) = Spec.projG (blk x1) (blk x2) (wT x4) p d := by
  unfold projK Spec.projG
  refine Finset.sum_congr rfl fun c _ => ?_
  show k0_pay6 x1 x2 (ix2 p c) * x4 (ix2 c d) = _
  rw [pay6_apply]

/-- The attention weights computed from the projections read back from scratch. -/
theorem attn_apply (x0 : Vec Ideal S1x288x2048 .bf16) (x1 x2 : Vec Ideal S1x288x2048 .f32) (x3 x4 : Vec Ideal S2048x2048 .bf16) (p k : Fin 288) :
    k0_pay16 (projK (k0_pay3 x0) x3) (projK (k0_pay6 x1 x2) x4) (ix2 p k) = Spec.attn (blk x0) (blk x1) (blk x2) (wT x3) (wT x4) p k := by
  rw [pay16_eq, attnK_apply]
  unfold Spec.attn Spec.logits
  refine congrArg (fun L => Spec.softmax L p k) ?_
  funext p' k'
  refine congrArg (· * Spec.scale) (Finset.sum_congr rfl fun d _ => ?_)
  rw [projQ_apply, projG_apply]

/-- The second output block. -/
theorem block6_apply (x0 : Vec Ideal S1x288x2048 .bf16) (x1 x2 : Vec Ideal S1x288x2048 .f32) (x3 x4 : Vec Ideal S2048x2048 .bf16) (p k : Fin 288) :
    k0_pay2 (k0_pay16 (projK (k0_pay3 x0) x3) (projK (k0_pay6 x1 x2) x4)) (ix3 (0 : Fin 1) p k) = Spec.attn (blk x0) (blk x1) (blk x2) (wT x3) (wT x4) p k := by
  show shapeCast S1x288x288 (k0_pay16 (projK (k0_pay3 x0) x3) (projK (k0_pay6 x1 x2) x4)) shapeCasts_S288x288_S1x288x288 (ix3 (0 : Fin 1) p k) = _
  rw [shapeCast_ab_1ab_apply, attn_apply]

/-- The first output block. -/
theorem block5_apply (x0 : Vec Ideal S1x288x2048 .bf16) (x1 x2 : Vec Ideal S1x288x2048 .f32) (x3 x4 : Vec Ideal S2048x2048 .bf16) (p : Fin 288) (c : Fin 2048) :
    k0_pay1 (k0_pay17 (projK (k0_pay3 x0) x3) (projK (k0_pay6 x1 x2) x4)) (k0_pay5 x1) (ix3 (0 : Fin 1) p c) = Spec.out (blk x0) (blk x1) (blk x2) (wT x3) (wT x4) p c := by
  show shapeCast S1x288x2048 (matmul dot_S288x288_S288x2048_S288x2048_1_0_0_1_n_n none (k0_pay17 (projK (k0_pay3 x0) x3) (projK (k0_pay6 x1 x2) x4))
      (truncf .bf16 (k0_pay5 x1) bitsLt_bf16_f32) (constant S288x2048 .f32 0x00000000#32)) shapeCasts_S288x2048_S1x288x2048 (ix3 (0 : Fin 1) p c) = _
  rw [shapeCast_ab_1ab_apply, matmulMix_apply]
  unfold Spec.out
  refine Finset.sum_congr rfl fun k _ => ?_
  have h17 : k0_pay17 (projK (k0_pay3 x0) x3) (projK (k0_pay6 x1 x2) x4) (ix2 p k) = Spec.attn (blk x0) (blk x1) (blk x2) (wT x3) (wT x4) p k := attn_apply x0 x1 x2 x3 x4 p k
  have h5 : truncf .bf16 (k0_pay5 x1) bitsLt_bf16_f32 (ix2 k c) = Spec.mixed (blk x1) k c := by
    show shapeCast S288x2048 (k0_pay4 x1) shapeCasts_S288x2048_S288x2048 (ix2 k c) = _
    rw [shapeCast_self, pay4_apply]
  rw [h17, h5]

end Cert.KernelIdeal.BlockValue

end
-- ==== Proof.SpecArrays.lean ====
/-
  The two results as whole arrays: batch entry `b` of each result is the specification's result of batch entry `b`
  of the queries and of the features, the one position table and the two weight matrices. Entry (b, p, ·) of a
  result depends on batch entry `b` of the first two arguments only.
-/
import proofs.«136536_j47201690583533_2_alg».proof.Proof.Spec

noncomputable section

namespace Cert.Spec

open Idealize.ShloMosaic Idealize.ShloMosaic.ValueIdx

/-- Batch entry `b` of a 32 × 288 × 2048 array as a matrix. -/
abbrev sl (A : (⟨3, ![32, 288, 2048]⟩ : Shape).Idx → EReal) (b : Fin 32) : Mat 288 2048 := fun p c => A (ix3 b p c)
/-- The position table, whose leading axis has one entry, as a matrix. -/
abbrev posM (A : (⟨3, ![1, 288, 2048]⟩ : Shape).Idx → EReal) : Mat 288 2048 := fun p c => A (ix3 (0 : Fin 1) p c)
/-- A weight array as a matrix: row `d`, column `c`. -/
abbrev wM (W : (⟨2, ![2048, 2048]⟩ : Shape).Idx → EReal) : Mat 2048 2048 := fun d c => W (ix2 d c)

/-- The first result, 32 × 288 × 2048. -/
def outArr (X G : (⟨3, ![32, 288, 2048]⟩ : Shape).Idx → EReal) (P : (⟨3, ![1, 288, 2048]⟩ : Shape).Idx → EReal)
    (Wq Wg : (⟨2, ![2048, 2048]⟩ : Shape).Idx → EReal) : (⟨3, ![32, 288, 2048]⟩ : Shape).Idx → EReal :=
  fun i => out (sl X (i 0)) (sl G (i 0)) (posM P) (wM Wq) (wM Wg) (i 1) (i 2)

/-- The second result, 32 × 288 × 288. -/
def attnArr (X G : (⟨3, ![32, 288, 2048]⟩ : Shape).Idx → EReal) (P : (⟨3, ![1, 288, 2048]⟩ : Shape).Idx → EReal)
    (Wq Wg : (⟨2, ![2048, 2048]⟩ : Shape).Idx → EReal) : (⟨3, ![32, 288, 288]⟩ : Shape).Idx → EReal :=
  fun i => attn (sl X (i 0)) (sl G (i 0)) (posM P) (wM Wq) (wM Wg) (i 1) (i 2)

theorem outArr_apply (X G P Wq Wg) (b : Fin 32) (p : Fin 288) (c : Fin 2048) :
    outArr X G P Wq Wg (ix3 b p c) = out (sl X b) (sl G b) (posM P) (wM Wq) (wM Wg) p c := rfl

theorem attnArr_apply (X G P Wq Wg) (b : Fin 32) (p k : Fin 288) :
    attnArr X G P Wq Wg (ix3 b p k) = attn (sl X b) (sl G b) (posM P) (wM Wq) (wM Wg) p k := rfl

end Cert.Spec

end
-- ==== Proof.KernelArrays.lean ====
/-
  From blocks to arrays. Grid point `t` of the 32 handles batch entry `t`: its query and feature blocks are batch
  entry `t` of their arrays, its position and weight blocks are the whole arrays at every point, and it writes back
  batch entry `t` of each result. The query array the region is handed is the argument with its float format
  changed, and each weight array the argument's format changed and then transposed — identities on the extended reals
  up to the transposition, which the block reading undoes. So what each point writes back is its batch entry of the
  specification's result array of the five arguments, and since the 32 batch entries tile each result array, the
  arrays end holding those result arrays.
-/
import proofs.«136536_j47201690583533_2_alg».proof.Proof.Gen.KernelIdeal.Value
import proofs.«136536_j47201690583533_2_alg».proof.Proof.KernelBlockValue
import proofs.«136536_j47201690583533_2_alg».proof.Proof.SpecArrays
import Idealize.ShloMosaic.Lib.ValueLayout
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.KernelIdeal.BlockValue

variable (m : (ℓ : Loc nD τ sig) → Buf (Elt Ideal) ℓ) (ρ : Dev nD → PrngReg)

/-- The batch entry grid point `t` handles. -/
def bOf (t : Fin cfg0.N) : Fin 32 := ⟨t.val, by have := t.isLt; have h : cfg0.N = 32 := N_0; omega⟩

/-- The printed index maps over the grid: the batch windows (queries, features, both results) sit at block `t` of
    the batch axis, every other window at block 0 on every axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## The input blocks read off their arrays -/

theorem iblk0_apply (c : Dev nD) (t : Fin cfg0.N) (u : Fin 1) (p : Fin 288) (k : Fin 2048) :
    (iblk m c 0 t : S1x288x2048.Idx → EReal) (ix3 u p k) = (V m c main_v0 : S32x288x2048.Idx → EReal) (ix3 (bOf t) p k) := by
  obtain ⟨e0, e1, e2, -⟩ := idx_facts t
  unfold iblk
  rw [View.read_apply]
  show (V m c main_v0 : S32x288x2048.Idx → EReal) _ = _
  refine congrArg (V m c main_v0 : S32x288x2048.Idx → EReal) (funext fun a => Fin.ext ?_)
  match a with
  | ⟨0, _⟩ => show win0_0.index t (0 : Fin 3) * 1 + 1 * u.val = t.val; have := u.isLt; omega
  | ⟨1, _⟩ => show win0_0.index t (1 : Fin 3) * 288 + 1 * p.val = p.val; omega
  | ⟨2, _⟩ => show win0_0.index t (2 : Fin 3) * 2048 + 1 * k.val = k.val; omega

theorem iblk1_apply (c : Dev nD) (t : Fin cfg0.N) (u : Fin 1) (p : Fin 288) (k : Fin 2048) :
    (iblk m c 1 t : S1x288x2048.Idx → EReal) (ix3 u p k) = (V m c main_arg1 : S32x288x2048.Idx → EReal) (ix3 (bOf t) p k) := by
  obtain ⟨-, -, -, e0, e1, e2, -⟩ := idx_facts t
  unfold iblk
  rw [View.read_apply]
  show (V m c main_arg1 : S32x288x2048.Idx → EReal) _ = _
  refine congrArg (V m c main_arg1 : S32x288x2048.Idx → EReal) (funext fun a => Fin.ext ?_)
  match a with
  | ⟨0, _⟩ => show win0_1.index t (0 : Fin 3) * 1 + 1 * u.val = t.val; have := u.isLt; omega
  | ⟨1, _⟩ => show win0_1.index t (1 : Fin 3) * 288 + 1 * p.val = p.val; omega
  | ⟨2, _⟩ => show win0_1.index t (2 : Fin 3) * 2048 + 1 * k.val = k.val; omega

theorem iblk2_apply (c : Dev nD) (t : Fin cfg0.N) (u : Fin 1) (p : Fin 288) (k : Fin 2048) :
    (iblk m c 2 t : S1x288x2048.Idx → EReal) (ix3 u p k) = (V m c main_arg2 : S1x288x2048.Idx → EReal) (ix3 (0 : Fin 1) p k) := by
  obtain ⟨-, -, -, -, -, -, e0, e1, e2, -⟩ := idx_facts t
  unfold iblk
  rw [View.read_apply]
  show (V m c main_arg2 : S1x288x2048.Idx → EReal) _ = _
  refine congrArg (V m c main_arg2 : S1x288x2048.Idx → EReal) (funext fun a => Fin.ext ?_)
  match a with
  | ⟨0, _⟩ => show win0_2.index t (0 : Fin 3) * 1 + 1 * u.val = 0; have := u.isLt; omega
  | ⟨1, _⟩ => show win0_2.index t (1 : Fin 3) * 288 + 1 * p.val = p.val; omega
  | ⟨2, _⟩ => show win0_2.index t (2 : Fin 3) * 2048 + 1 * k.val = k.val; omega

theorem iblk3_apply (c : Dev nD) (t : Fin cfg0.N) (a b : Fin 2048) :
    (iblk m c 3 t : S2048x2048.Idx → EReal) (ix2 a b) = (V m c main_v2 : S2048x2048.Idx → EReal) (ix2 a b) := by
  obtain ⟨-, -, -, -, -, -, -, -, -, e0, e1, -⟩ := idx_facts t
  unfold iblk
  rw [View.read_apply]
  show (V m c main_v2 : S2048x2048.Idx → EReal) _ = _
  refine congrArg (V m c main_v2 : S2048x2048.Idx → EReal) (funext fun ax => Fin.ext ?_)
  match ax with
  | ⟨0, _⟩ => show win0_3.index t (0 : Fin 2) * 2048 + 1 * a.val = a.val; omega
  | ⟨1, _⟩ => show win0_3.index t (1 : Fin 2) * 2048 + 1 * b.val = b.val; omega

theorem iblk4_apply (c : Dev nD) (t : Fin cfg0.N) (a b : Fin 2048) :
    (iblk m c 4 t : S2048x2048.Idx → EReal) (ix2 a b) = (V m c main_v4 : S2048x2048.Idx → EReal) (ix2 a b) := by
  obtain ⟨-, -, -, -, -, -, -, -, -, -, -, e0, e1, -⟩ := idx_facts t
  unfold iblk
  rw [View.read_apply]
  show (V m c main_v4 : S2048x2048.Idx → EReal) _ = _
  refine congrArg (V m c main_v4 : S2048x2048.Idx → EReal) (funext fun ax => Fin.ext ?_)
  match ax with
  | ⟨0, _⟩ => show win0_4.index t (0 : Fin 2) * 2048 + 1 * a.val = a.val; omega
  | ⟨1, _⟩ => show win0_4.index t (1 : Fin 2) * 2048 + 1 * b.val = b.val; omega

/-! ## The arrays the host operations hand the region -/

/-- The query array: the argument, its float format changed. -/
theorem V0_eq (c : Dev nD) : (V m c main_v0 : S32x288x2048.Idx → EReal) = (m ((c : Thread nD τ).loc main_arg0)) := by
  dsimp only [Gen.V, Gen.hostOps0]; after_results; rfl

/-- A weight array as handed over: format changed, then transposed. -/
theorem V2_apply (c : Dev nD) (a b : Fin 2048) :
    (V m c main_v2 : S2048x2048.Idx → EReal) (ix2 a b) = ((m ((c : Thread nD τ).loc main_arg3)) : S2048x2048.Idx → EReal) (ix2 b a) := by
  have e : (V m c main_v2 : S2048x2048.Idx → EReal)
      = transpose S2048x2048 [1, 0] (truncf (F := Ideal) .bf16 (m ((c : Thread nD τ).loc main_arg3)) bitsLt_bf16_f32) transposes_S2048x2048_S2048x2048_1_0 := by
    dsimp only [Gen.V, Gen.hostOps0]; after_results
  rw [e, transpose_ix2_apply]
  rfl

theorem V4_apply (c : Dev nD) (a b : Fin 2048) :
    (V m c main_v4 : S2048x2048.Idx → EReal) (ix2 a b) = ((m ((c : Thread nD τ).loc main_arg4)) : S2048x2048.Idx → EReal) (ix2 b a) := by
  have e : (V m c main_v4 : S2048x2048.Idx → EReal)
      = transpose S2048x2048 [1, 0] (truncf (F := Ideal) .bf16 (m ((c : Thread nD τ).loc main_arg4)) bitsLt_bf16_f32) transposes_S2048x2048_S2048x2048_1_0 := by
    dsimp only [Gen.V, Gen.hostOps0]; after_results
  rw [e, transpose_ix2_apply]
  rfl

/-! ## The blocks at point `t` as matrices of the arguments -/

theorem blk0 (c : Dev nD) (t : Fin cfg0.N) : blk (iblk m c 0 t) = Spec.sl (m ((c : Thread nD τ).loc main_arg0)) (bOf t) :=
  funext fun p => funext fun k => (iblk0_apply m c t 0 p k).trans (congrFun (V0_eq m c) _)
theorem blk1 (c : Dev nD) (t : Fin cfg0.N) : blk (iblk m c 1 t) = Spec.sl (m ((c : Thread nD τ).loc main_arg1)) (bOf t) :=
  funext fun p => funext fun k => (iblk1_apply m c t 0 p k).trans (congrFun (V_main_arg1 m c) _)
theorem blk2 (c : Dev nD) (t : Fin cfg0.N) : blk (iblk m c 2 t) = Spec.posM (m ((c : Thread nD τ).loc main_arg2)) :=
  funext fun p => funext fun k => (iblk2_apply m c t 0 p k).trans (congrFun (V_main_arg2 m c) _)
theorem wT3 (c : Dev nD) (t : Fin cfg0.N) : wT (iblk m c 3 t) = Spec.wM (m ((c : Thread nD τ).loc main_arg3)) :=
  funext fun d => funext fun k => (iblk3_apply m c t k d).trans (V2_apply m c k d)
theorem wT4 (c : Dev nD) (t : Fin cfg0.N) : wT (iblk m c 4 t) = Spec.wM (m ((c : Thread nD τ).loc main_arg4)) :=
  funext fun d => funext fun k => (iblk4_apply m c t k d).trans (V4_apply m c k d)

/-- The two result arrays of the five arguments. -/
abbrev G5 (c : Dev nD) : S32x288x2048.Idx → EReal := Spec.outArr (m ((c : Thread nD τ).loc main_arg0)) (m ((c : Thread nD τ).loc main_arg1)) (m ((c : Thread nD τ).loc main_arg2)) (m ((c : Thread nD τ).loc main_arg3)) (m ((c : Thread nD τ).loc main_arg4))
abbrev G6 (c : Dev nD) : S32x288x288.Idx → EReal := Spec.attnArr (m ((c : Thread nD τ).loc main_arg0)) (m ((c : Thread nD τ).loc main_arg1)) (m ((c : Thread nD τ).loc main_arg2)) (m ((c : Thread nD τ).loc main_arg3)) (m ((c : Thread nD τ).loc main_arg4))

/-! ## What each point writes back -/

/-- Point `t` writes back batch entry `t` of the attention-weights array. -/
theorem flushed6_eq (c : Dev nD) (t : Fin cfg0.N) :
    (dats m 0 c).flushed 6 t = ((cfg0.win 6).blk t).view.read (Elt Ideal) (G6 m c) := by
  rw [Value.flushed6_A]
  funext j
  have hj0 : (j 0).val < 1 := (j 0).isLt
  have hj1 : (j 1).val < 288 := (j 1).isLt
  have hj2 : (j 2).val < 288 := (j 2).isLt
  obtain ⟨-, -, -, -, -, -, -, -, -, -, -, -, -, -, -, -, e0, e1, e2⟩ := idx_facts t
  have hx : ((cfg0.win 6).xinj (grid0.coords t) j : S1x288x288.Idx) = ix3 (0 : Fin 1) (⟨(j 1).val, hj1⟩ : Fin 288) (⟨(j 2).val, hj2⟩ : Fin 288) :=
    funext fun a => Fin.ext (by
      match a with
      | ⟨0, _⟩ => show (j 0).val = 0; omega
      | ⟨1, _⟩ => rfl
      | ⟨2, _⟩ => rfl)
  have hy : (((cfg0.win 6).blk t).view.emb j : S32x288x288.Idx) = ix3 (bOf t) (⟨(j 1).val, hj1⟩ : Fin 288) (⟨(j 2).val, hj2⟩ : Fin 288) :=
    funext fun a => Fin.ext (by
      match a with
      | ⟨0, _⟩ => show win0_6.index t (0 : Fin 3) * 1 + 1 * (j 0).val = t.val; omega
      | ⟨1, _⟩ => show win0_6.index t (1 : Fin 3) * 288 + 1 * (j 1).val = (j 1).val; omega
      | ⟨2, _⟩ => show win0_6.index t (2 : Fin 3) * 288 + 1 * (j 2).val = (j 2).val; omega)
  show (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) : S1x288x288.Idx → EReal) ((cfg0.win 6).xinj (grid0.coords t) j) = G6 m c (((cfg0.win 6).blk t).view.emb j)
  rw [hx, hy, out6_eq, block6_apply, blk0, blk1, blk2, wT3, wT4]
  rfl

/-- Point `t` writes back batch entry `t` of the first result array. -/
theorem flushed5_eq (c : Dev nD) (t : Fin cfg0.N) :
    (dats m 0 c).flushed 5 t = ((cfg0.win 5).blk t).view.read (Elt Ideal) (G5 m c) := by
  rw [Value.flushed5_A]
  funext j
  have hj0 : (j 0).val < 1 := (j 0).isLt
  have hj1 : (j 1).val < 288 := (j 1).isLt
  have hj2 : (j 2).val < 2048 := (j 2).isLt
  obtain ⟨-, -, -, -, -, -, -, -, -, -, -, -, -, e0, e1, e2, -⟩ := idx_facts t
  have hx : ((cfg0.win 5).xinj (grid0.coords t) j : S1x288x2048.Idx) = ix3 (0 : Fin 1) (⟨(j 1).val, hj1⟩ : Fin 288) (⟨(j 2).val, hj2⟩ : Fin 2048) :=
    funext fun a => Fin.ext (by
      match a with
      | ⟨0, _⟩ => show (j 0).val = 0; omega
      | ⟨1, _⟩ => rfl
      | ⟨2, _⟩ => rfl)
  have hy : (((cfg0.win 5).blk t).view.emb j : S32x288x2048.Idx) = ix3 (bOf t) (⟨(j 1).val, hj1⟩ : Fin 288) (⟨(j 2).val, hj2⟩ : Fin 2048) :=
    funext fun a => Fin.ext (by
      match a with
      | ⟨0, _⟩ => show win0_5.index t (0 : Fin 3) * 1 + 1 * (j 0).val = t.val; omega
      | ⟨1, _⟩ => show win0_5.index t (1 : Fin 3) * 288 + 1 * (j 1).val = (j 1).val; omega
      | ⟨2, _⟩ => show win0_5.index t (2 : Fin 3) * 2048 + 1 * (j 2).val = (j 2).val; omega)
  show (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) : S1x288x2048.Idx → EReal) ((cfg0.win 5).xinj (grid0.coords t) j) = G5 m c (((cfg0.win 5).blk t).view.emb j)
  rw [hx, hy, out5_eq, block5_apply, blk0, blk1, blk2, wT3, wT4]
  rfl

/-! ## The result arrays after the run -/

/-- Every index of the first result array is in the block of the point that handles its batch entry. -/
theorem cover5 (i : S32x288x2048.Idx) :
    ∃ t : Fin cfg0.N, (cfg0.win 5).flush t = true ∧ i ∈ ((cfg0.win 5).blk t).view.set := by
  have hi0 : (i 0).val < 32 := (i 0).isLt
  have hi1 : (i 1).val < 288 := (i 1).isLt
  have hi2 : (i 2).val < 2048 := (i 2).isLt
  have hN : cfg0.N = 32 := N_0
  obtain ⟨t, ht⟩ : ∃ t : Fin cfg0.N, t.val = (i 0).val := ⟨⟨(i 0).val, by omega⟩, rfl⟩
  obtain ⟨-, -, -, -, -, -, -, -, -, -, -, -, -, e0, e1, e2, -⟩ := idx_facts t
  refine ⟨t, flush0_5 t, ?_⟩
  show i ∈ ((View.whole main_v5_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 288 ≤ (i 1).val ∧ (i 1).val < win0_5.index t (1 : Fin 3) * 288 + 288; omega
  | ⟨2, _⟩ => show win0_5.index t (2 : Fin 3) * 2048 ≤ (i 2).val ∧ (i 2).val < win0_5.index t (2 : Fin 3) * 2048 + 2048; omega

/-- Every index of the second result array likewise. -/
theorem cover6 (i : S32x288x288.Idx) :
    ∃ t : Fin cfg0.N, (cfg0.win 6).flush t = true ∧ i ∈ ((cfg0.win 6).blk t).view.set := by
  have hi0 : (i 0).val < 32 := (i 0).isLt
  have hi1 : (i 1).val < 288 := (i 1).isLt
  have hi2 : (i 2).val < 288 := (i 2).isLt
  have hN : cfg0.N = 32 := N_0
  obtain ⟨t, ht⟩ : ∃ t : Fin cfg0.N, t.val = (i 0).val := ⟨⟨(i 0).val, by omega⟩, rfl⟩
  obtain ⟨-, -, -, -, -, -, -, -, -, -, -, -, -, -, -, -, e0, e1, e2⟩ := idx_facts t
  refine ⟨t, flush0_6 t, ?_⟩
  show i ∈ ((View.whole main_v5_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 288 ≤ (i 1).val ∧ (i 1).val < win0_6.index t (1 : Fin 3) * 288 + 288; omega
  | ⟨2, _⟩ => show win0_6.index t (2 : Fin 3) * 288 ≤ (i 2).val ∧ (i 2).val < win0_6.index t (2 : Fin 3) * 288 + 288; omega

/-- The first result array after the run. -/
theorem final5 (c : Dev nD) : (dats m 0 c).arrAt 5 cfg0.N = G5 m c :=
  (dats m 0 c).arrAt_eq_of_cover 5 (G5 m c) (fun t _ => flushed5_eq m c t) cover5

/-- The second result array after the run. -/
theorem final6 (c : Dev nD) : (dats m 0 c).arrAt 6 cfg0.N = G6 m c :=
  (dats m 0 c).arrAt_eq_of_cover 6 (G6 m c) (fun t _ => flushed6_eq m c t) cover6

/-- The kernel's run: every weakly fair execution ends with the two result arrays at the specification's result arrays
    of the arguments, the arguments unchanged. -/
theorem run : θ_run defs (onTc (τ := τ) (main (F := Ideal))) ⟨m, fun _ => 0, ρ⟩ fun r => ∀ c : Dev nD,
      r.2.mem ((c : Thread nD τ).loc main_v5_0) = G5 m c
      ∧ r.2.mem ((c : Thread nD τ).loc main_v5_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.ArrayValue

end
-- ==== Proof.RefStages.lean ====
/-
  The reference read onto the specification, one operation at a time, at coordinate indices (batch entry `b`, row
  `p`, column `c`): every stage of the reference at (b, ·, ·) is the specification's stage of batch entry `b` of
  the arguments. The reference carries a leading batch axis through every operation; its products contract the same
  coordinates as the specification's sums, its row sums start from the zero word, and its softmax takes
  `max (−∞) (row maximum)`, which is the row maximum.
-/
import proofs.«136536_j47201690583533_2_alg».proof.Proof.Gen.ReferenceIdeal.Read
import proofs.«136536_j47201690583533_2_alg».proof.Proof.SpecArrays
import Idealize.ShloMosaic.PureOps.Reduce

noncomputable section

namespace Cert.ReferenceIdeal.Stages

open Idealize.ShloMosaic Idealize.ShloMosaic.ValueIdx
open Cert.ReferenceIdeal Cert.ReferenceIdeal.Gen Cert.ReferenceIdeal.Read

/-- Batch entry `b` of a 32 × 288 × 2048 array, the one entry of the position table, and a weight matrix, as matrices. -/
abbrev sl (A : S32x288x2048.Idx → EReal) (b : Fin 32) : Spec.Mat 288 2048 := fun p c => A (ix3 b p c)
abbrev posM (A : S1x288x2048.Idx → EReal) : Spec.Mat 288 2048 := fun p c => A (ix3 (0 : Fin 1) p c)
abbrev wM (W : S2048x2048.Idx → EReal) : Spec.Mat 2048 2048 := fun d c => W (ix2 d c)

/-! ## The normalized rows and their similarities -/

theorem rnorm6 (x1 : FVec Ideal S32x288x2048 .f32) (b : Fin 32) (p : Fin 288) :
    val_main_v6 (F := Ideal) x1 (ix3 b p (0 : Fin 1)) = Spec.rowNorm (sl x1 b) p := by
  rw [val_main_v6_apply, val_main_v4_apply, val_main_v3_apply, show idx_main_v3 (ix3 b p (0 : Fin 1)) = ix2 b p from funext fun a => by match a with | ⟨0, _⟩ => rfl | ⟨1, _⟩ => rfl,
    val_main_v2_apply, val_main_cst_apply, val_main_v5_apply, val_main_cst_0_apply]
  show max (Ideal.sqrt (Ideal.ofBits .f32 0x00000000#32 + _)) _ = _
  rw [Ideal.ofBits_zero_f32, zero_add]
  unfold Spec.rowNorm
  refine congrArg (fun s => max (Ideal.sqrt s) Spec.eps) (Finset.sum_congr rfl fun k _ => ?_)
  rw [val_main_v1_apply, show idx_main_v2 (ix2 b p) k = ix3 b p k from funext fun a => by match a with | ⟨0, _⟩ => rfl | ⟨1, _⟩ => rfl | ⟨2, _⟩ => rfl]
  rfl

theorem runit8 (x1 : FVec Ideal S32x288x2048 .f32) (b : Fin 32) (p : Fin 288) (c : Fin 2048) :
    val_main_v8 (F := Ideal) x1 (ix3 b p c) = Spec.unitRow (sl x1 b) p c := by
  rw [val_main_v8_apply, val_main_v7_apply, show idx_main_v7 (ix3 b p c) = ix3 b p (0 : Fin 1) from funext fun a => by match a with | ⟨0, _⟩ => rfl | ⟨1, _⟩ => rfl | ⟨2, _⟩ => rfl, rnorm6]
  rfl

theorem rcos9 (x1 : FVec Ideal S32x288x2048 .f32) (b : Fin 32) (p q : Fin 288) :
    val_main_v9 (F := Ideal) x1 (ix3 b p q) = Spec.cosLogits (sl x1 b) p q := by
  rw [val_main_v9_apply]
  unfold Spec.cosLogits
  refine Finset.sum_congr rfl fun k _ => ?_
  rw [show lidx_main_v9 (ix3 b p q) k = ix3 b p k from funext fun a => by match a with | ⟨0, _⟩ => rfl | ⟨1, _⟩ => rfl | ⟨2, _⟩ => rfl, show ridx_main_v9 (ix3 b p q) k = ix3 b q k from funext fun a => by match a with | ⟨0, _⟩ => rfl | ⟨1, _⟩ => rfl | ⟨2, _⟩ => rfl, runit8, runit8]

/-- The row maximum the reference takes from −∞ (the cosine similarities'). -/
theorem rmax10 (x1 : FVec Ideal S32x288x2048 .f32) (b : Fin 32) (p : Fin 288) :
    val_main_v10 (F := Ideal) x1 (ix2 b p) = Spec.rowMax (Spec.cosLogits (sl x1 b)) p := by
  have h : S32x288x288.Reduces [2] S32x288 := by decide
  unfold val_main_v10 Spec.rowMax
  rw [Host.reduce_eq_fold_single FloatOps.maximumf _ _ reducesTo_S32x288x288_S32x288_d2 h h_S_]
  have hq : ∀ q : Fin 288, val_main_v9 (F := Ideal) x1 (h.lift (ix2 b p) q) = Spec.cosLogits (sl x1 b) p q := fun q => by
    rw [show h.lift (ix2 b p) q = ix3 b p q from funext fun a => by match a with | ⟨0, _⟩ => rfl | ⟨1, _⟩ => rfl | ⟨2, _⟩ => rfl, rcos9]
  have hf : (val_main_v9 (F := Ideal) x1 ∘ h.lift (ix2 b p)) = fun q : Fin 288 => Spec.cosLogits (sl x1 b) p q := funext fun q => hq q
  exact congrArg (fun f => Finset.fold max Spec.negInf f (Finset.univ : Finset (Fin 288))) hf

/-- jnp's softmax takes the maximum with −∞ once more, which changes nothing; the result laid along the row. -/
theorem rmaxb14 (x1 : FVec Ideal S32x288x2048 .f32) (b : Fin 32) (p q : Fin 288) :
    val_main_v14 (F := Ideal) x1 (ix3 b p q) = Spec.rowMax (Spec.cosLogits (sl x1 b)) p := by
  rw [val_main_v14_apply, show idx_main_v14 (ix3 b p q) = ix3 b p (0 : Fin 1) from funext fun a => by match a with | ⟨0, _⟩ => rfl | ⟨1, _⟩ => rfl | ⟨2, _⟩ => rfl,
    val_main_v13_apply, show idx_main_v13 (ix3 b p (0 : Fin 1)) = ix2 b p from funext fun a => by match a with | ⟨0, _⟩ => rfl | ⟨1, _⟩ => rfl,
    val_main_v12_apply, val_main_v11_apply, val_main_cst_2_apply, rmax10]
  show max (Ideal.ofBits .f32 0xFF800000#32) _ = _
  exact max_eq_right (by simp [Ideal.ofBits, Ideal.ieee])

theorem rexp16 (x1 : FVec Ideal S32x288x2048 .f32) (b : Fin 32) (p q : Fin 288) :
    val_main_v16 (F := Ideal) x1 (ix3 b p q) = Ideal.exp (Spec.cosLogits (sl x1 b) p q - Spec.rowMax (Spec.cosLogits (sl x1 b)) p) := by
  rw [val_main_v16_apply, val_main_v15_apply, rmaxb14, rcos9]
  rfl

theorem rsum19 (x1 : FVec Ideal S32x288x2048 .f32) (b : Fin 32) (p q : Fin 288) :
    val_main_v19 (F := Ideal) x1 (ix3 b p q) = ∑ k : Fin 288, Ideal.exp (Spec.cosLogits (sl x1 b) p k - Spec.rowMax (Spec.cosLogits (sl x1 b)) p) := by
  rw [val_main_v19_apply, show idx_main_v19 (ix3 b p q) = ix3 b p (0 : Fin 1) from funext fun a => by match a with | ⟨0, _⟩ => rfl | ⟨1, _⟩ => rfl | ⟨2, _⟩ => rfl,
    val_main_v18_apply, show idx_main_v18 (ix3 b p (0 : Fin 1)) = ix2 b p from funext fun a => by match a with | ⟨0, _⟩ => rfl | ⟨1, _⟩ => rfl,
    val_main_v17_apply, val_main_cst_3_apply]
  show Ideal.ofBits .f32 0x00000000#32 + _ = _
  rw [Ideal.ofBits_zero_f32, zero_add]
  refine Finset.sum_congr rfl fun k _ => ?_
  rw [show idx_main_v17 (ix2 b p) k = ix3 b p k from funext fun a => by match a with | ⟨0, _⟩ => rfl | ⟨1, _⟩ => rfl | ⟨2, _⟩ => rfl, rexp16]

/-- The reference's softmax (the cosine similarities'). -/
theorem rsoftmax20 (x1 : FVec Ideal S32x288x2048 .f32) (b : Fin 32) (p q : Fin 288) :
    val_main_v20 (F := Ideal) x1 (ix3 b p q) = Spec.softmax (Spec.cosLogits (sl x1 b)) p q := by
  rw [val_main_v20_apply, rexp16, rsum19]
  rfl

/-! ## The mixed rows and the two projections -/

theorem rmixed21 (x1 : FVec Ideal S32x288x2048 .f32) (b : Fin 32) (p : Fin 288) (c : Fin 2048) :
    val_main_v21 (F := Ideal) x1 (ix3 b p c) = Spec.mixed (sl x1 b) p c := by
  rw [val_main_v21_apply]
  unfold Spec.mixed
  refine Finset.sum_congr rfl fun k _ => ?_
  rw [show lidx_main_v21 (ix3 b p c) k = ix3 b p k from funext fun a => by match a with | ⟨0, _⟩ => rfl | ⟨1, _⟩ => rfl | ⟨2, _⟩ => rfl, show ridx_main_v21 (ix3 b p c) k = ix3 b k c from funext fun a => by match a with | ⟨0, _⟩ => rfl | ⟨1, _⟩ => rfl | ⟨2, _⟩ => rfl, rsoftmax20]

theorem rprojG24 (x1 : FVec Ideal S32x288x2048 .f32) (x2 : FVec Ideal S1x288x2048 .f32) (x4 : FVec Ideal S2048x2048 .f32)
    (b : Fin 32) (p : Fin 288) (d : Fin 2048) :
    val_main_v24 (F := Ideal) x1 x2 x4 (ix3 b p d) = Spec.projG (sl x1 b) (posM x2) (wM x4) p d := by
  rw [val_main_v24_apply]
  unfold Spec.projG
  refine Finset.sum_congr rfl fun k _ => ?_
  rw [show lidx_main_v24 (ix3 b p d) k = ix3 b p k from funext fun a => by match a with | ⟨0, _⟩ => rfl | ⟨1, _⟩ => rfl | ⟨2, _⟩ => rfl, show ridx_main_v24 (ix3 b p d) k = ix2 d k from funext fun a => by match a with | ⟨0, _⟩ => rfl | ⟨1, _⟩ => rfl,
    val_main_v23_apply, rmixed21, val_main_v22_apply, show idx_main_v22 (ix3 b p k) = ix3 (0 : Fin 1) p k from funext fun a => by match a with | ⟨0, _⟩ => rfl | ⟨1, _⟩ => rfl | ⟨2, _⟩ => rfl]
  rfl

theorem rprojQ0 (x0 : FVec Ideal S32x288x2048 .f32) (x3 : FVec Ideal S2048x2048 .f32) (b : Fin 32) (p : Fin 288) (d : Fin 2048) :
    val_main_v0 (F := Ideal) x0 x3 (ix3 b p d) = Spec.projQ (sl x0 b) (wM x3) p d := by
  rw [val_main_v0_apply]
  unfold Spec.projQ
  refine Finset.sum_congr rfl fun k _ => ?_
  rw [show lidx_main_v0 (ix3 b p d) k = ix3 b p k from funext fun a => by match a with | ⟨0, _⟩ => rfl | ⟨1, _⟩ => rfl | ⟨2, _⟩ => rfl, show ridx_main_v0 (ix3 b p d) k = ix2 d k from funext fun a => by match a with | ⟨0, _⟩ => rfl | ⟨1, _⟩ => rfl]

/-! ## The scaled logits and their softmax -/

theorem rlogits27 (x0 x1 : FVec Ideal S32x288x2048 .f32) (x2 : FVec Ideal S1x288x2048 .f32) (x3 x4 : FVec Ideal S2048x2048 .f32) (b : Fin 32) (p k : Fin 288) :
    val_main_v27 (F := Ideal) x0 x1 x2 x3 x4 (ix3 b p k) = Spec.logits (sl x0 b) (sl x1 b) (posM x2) (wM x3) (wM x4) p k := by
  rw [val_main_v27_apply, val_main_v25_apply, val_main_v26_apply, val_main_cst_4_apply]
  unfold Spec.logits
  refine congrArg (· * Spec.scale) (Finset.sum_congr rfl fun d _ => ?_)
  rw [show lidx_main_v25 (ix3 b p k) d = ix3 b p d from funext fun a => by match a with | ⟨0, _⟩ => rfl | ⟨1, _⟩ => rfl | ⟨2, _⟩ => rfl, show ridx_main_v25 (ix3 b p k) d = ix3 b k d from funext fun a => by match a with | ⟨0, _⟩ => rfl | ⟨1, _⟩ => rfl | ⟨2, _⟩ => rfl, rprojQ0, rprojG24]

/-- The row maximum the reference takes from −∞ (the scaled logits'). -/
theorem rmax28 (x0 x1 : FVec Ideal S32x288x2048 .f32) (x2 : FVec Ideal S1x288x2048 .f32) (x3 x4 : FVec Ideal S2048x2048 .f32) (b : Fin 32) (p : Fin 288) :
    val_main_v28 (F := Ideal) x0 x1 x2 x3 x4 (ix2 b p) = Spec.rowMax (Spec.logits (sl x0 b) (sl x1 b) (posM x2) (wM x3) (wM x4)) p := by
  have h : S32x288x288.Reduces [2] S32x288 := by decide
  unfold val_main_v28 Spec.rowMax
  rw [Host.reduce_eq_fold_single FloatOps.maximumf _ _ reducesTo_S32x288x288_S32x288_d2 h h_S_]
  have hq : ∀ q : Fin 288, val_main_v27 (F := Ideal) x0 x1 x2 x3 x4 (h.lift (ix2 b p) q) = Spec.logits (sl x0 b) (sl x1 b) (posM x2) (wM x3) (wM x4) p q := fun q => by
    rw [show h.lift (ix2 b p) q = ix3 b p q from funext fun a => by match a with | ⟨0, _⟩ => rfl | ⟨1, _⟩ => rfl | ⟨2, _⟩ => rfl, rlogits27]
  have hf : (val_main_v27 (F := Ideal) x0 x1 x2 x3 x4 ∘ h.lift (ix2 b p)) = fun q : Fin 288 => Spec.logits (sl x0 b) (sl x1 b) (posM x2) (wM x3) (wM x4) p q := funext fun q => hq q
  exact congrArg (fun f => Finset.fold max Spec.negInf f (Finset.univ : Finset (Fin 288))) hf

/-- jnp's softmax takes the maximum with −∞ once more, which changes nothing; the result laid along the row. -/
theorem rmaxb32 (x0 x1 : FVec Ideal S32x288x2048 .f32) (x2 : FVec Ideal S1x288x2048 .f32) (x3 x4 : FVec Ideal S2048x2048 .f32) (b : Fin 32) (p q : Fin 288) :
    val_main_v32 (F := Ideal) x0 x1 x2 x3 x4 (ix3 b p q) = Spec.rowMax (Spec.logits (sl x0 b) (sl x1 b) (posM x2) (wM x3) (wM x4)) p := by
  rw [val_main_v32_apply, show idx_main_v32 (ix3 b p q) = ix3 b p (0 : Fin 1) from funext fun a => by match a with | ⟨0, _⟩ => rfl | ⟨1, _⟩ => rfl | ⟨2, _⟩ => rfl,
    val_main_v31_apply, show idx_main_v31 (ix3 b p (0 : Fin 1)) = ix2 b p from funext fun a => by match a with | ⟨0, _⟩ => rfl | ⟨1, _⟩ => rfl,
    val_main_v30_apply, val_main_v29_apply, val_main_cst_6_apply, rmax28]
  show max (Ideal.ofBits .f32 0xFF800000#32) _ = _
  exact max_eq_right (by simp [Ideal.ofBits, Ideal.ieee])

theorem rexp34 (x0 x1 : FVec Ideal S32x288x2048 .f32) (x2 : FVec Ideal S1x288x2048 .f32) (x3 x4 : FVec Ideal S2048x2048 .f32) (b : Fin 32) (p q : Fin 288) :
    val_main_v34 (F := Ideal) x0 x1 x2 x3 x4 (ix3 b p q) = Ideal.exp (Spec.logits (sl x0 b) (sl x1 b) (posM x2) (wM x3) (wM x4) p q - Spec.rowMax (Spec.logits (sl x0 b) (sl x1 b) (posM x2) (wM x3) (wM x4)) p) := by
  rw [val_main_v34_apply, val_main_v33_apply, rmaxb32, rlogits27]
  rfl

theorem rsum37 (x0 x1 : FVec Ideal S32x288x2048 .f32) (x2 : FVec Ideal S1x288x2048 .f32) (x3 x4 : FVec Ideal S2048x2048 .f32) (b : Fin 32) (p q : Fin 288) :
    val_main_v37 (F := Ideal) x0 x1 x2 x3 x4 (ix3 b p q) = ∑ k : Fin 288, Ideal.exp (Spec.logits (sl x0 b) (sl x1 b) (posM x2) (wM x3) (wM x4) p k - Spec.rowMax (Spec.logits (sl x0 b) (sl x1 b) (posM x2) (wM x3) (wM x4)) p) := by
  rw [val_main_v37_apply, show idx_main_v37 (ix3 b p q) = ix3 b p (0 : Fin 1) from funext fun a => by match a with | ⟨0, _⟩ => rfl | ⟨1, _⟩ => rfl | ⟨2, _⟩ => rfl,
    val_main_v36_apply, show idx_main_v36 (ix3 b p (0 : Fin 1)) = ix2 b p from funext fun a => by match a with | ⟨0, _⟩ => rfl | ⟨1, _⟩ => rfl,
    val_main_v35_apply, val_main_cst_7_apply]
  show Ideal.ofBits .f32 0x00000000#32 + _ = _
  rw [Ideal.ofBits_zero_f32, zero_add]
  refine Finset.sum_congr rfl fun k _ => ?_
  rw [show idx_main_v35 (ix2 b p) k = ix3 b p k from funext fun a => by match a with | ⟨0, _⟩ => rfl | ⟨1, _⟩ => rfl | ⟨2, _⟩ => rfl, rexp34]

/-- The reference's softmax (the scaled logits'). -/
theorem rsoftmax38 (x0 x1 : FVec Ideal S32x288x2048 .f32) (x2 : FVec Ideal S1x288x2048 .f32) (x3 x4 : FVec Ideal S2048x2048 .f32) (b : Fin 32) (p q : Fin 288) :
    val_main_v38 (F := Ideal) x0 x1 x2 x3 x4 (ix3 b p q) = Spec.softmax (Spec.logits (sl x0 b) (sl x1 b) (posM x2) (wM x3) (wM x4)) p q := by
  rw [val_main_v38_apply, rexp34, rsum37]
  rfl

/-! ## The two results -/

/-- The reference's second result at (b, p, k). -/
theorem rattn38 (x0 x1 : FVec Ideal S32x288x2048 .f32) (x2 : FVec Ideal S1x288x2048 .f32) (x3 x4 : FVec Ideal S2048x2048 .f32) (b : Fin 32) (p k : Fin 288) :
    val_main_v38 (F := Ideal) x0 x1 x2 x3 x4 (ix3 b p k) = Spec.attn (sl x0 b) (sl x1 b) (posM x2) (wM x3) (wM x4) p k :=
  rsoftmax38 x0 x1 x2 x3 x4 b p k

/-- The reference's first result at (b, p, c). -/
theorem rout39 (x0 x1 : FVec Ideal S32x288x2048 .f32) (x2 : FVec Ideal S1x288x2048 .f32) (x3 x4 : FVec Ideal S2048x2048 .f32) (b : Fin 32) (p : Fin 288) (c : Fin 2048) :
    val_main_v39 (F := Ideal) x0 x1 x2 x3 x4 (ix3 b p c) = Spec.out (sl x0 b) (sl x1 b) (posM x2) (wM x3) (wM x4) p c := by
  rw [val_main_v39_apply]
  unfold Spec.out
  refine Finset.sum_congr rfl fun k _ => ?_
  rw [show lidx_main_v39 (ix3 b p c) k = ix3 b p k from funext fun a => by match a with | ⟨0, _⟩ => rfl | ⟨1, _⟩ => rfl | ⟨2, _⟩ => rfl, show ridx_main_v39 (ix3 b p c) k = ix3 b k c from funext fun a => by match a with | ⟨0, _⟩ => rfl | ⟨1, _⟩ => rfl | ⟨2, _⟩ => rfl, rattn38, rmixed21]

/-- The reference's first result is the specification's first result array of the arguments. -/
theorem ref_out (x0 x1 : FVec Ideal S32x288x2048 .f32) (x2 : FVec Ideal S1x288x2048 .f32) (x3 x4 : FVec Ideal S2048x2048 .f32) :
    val_main_v39 (F := Ideal) x0 x1 x2 x3 x4 = Spec.outArr x0 x1 x2 x3 x4 := by
  funext i
  obtain ⟨b, p, c, rfl⟩ : ∃ (b : Fin 32) (p : Fin 288) (c : Fin 2048), i = ix3 b p c := ⟨i 0, i 1, i 2, eq_ix3 i⟩
  exact rout39 x0 x1 x2 x3 x4 b p c

/-- The reference's second result is the specification's second result array of the arguments. -/
theorem ref_attn (x0 x1 : FVec Ideal S32x288x2048 .f32) (x2 : FVec Ideal S1x288x2048 .f32) (x3 x4 : FVec Ideal S2048x2048 .f32) :
    val_main_v38 (F := Ideal) x0 x1 x2 x3 x4 = Spec.attnArr x0 x1 x2 x3 x4 := by
  funext i
  obtain ⟨b, p, k, rfl⟩ : ∃ (b : Fin 32) (p : Fin 288) (k : Fin 288), i = ix3 b p k := ⟨i 0, i 1, i 2, eq_ix3 i⟩
  exact rattn38 x0 x1 x2 x3 x4 b p k

end Cert.ReferenceIdeal.Stages

end
-- ==== Proof.lean ====
/-
  The certificate of `Cert.Claim`: a Pallas kernel and its jnp reference, each of two stacked attention layers over 32
  batch entries of 288 patch rows of width 2048, end with the same two arrays over the extended reals.

  For one batch entry the rows of the feature matrix are divided by their Euclidean lengths (floored at a small
  constant), the rows' pairwise inner products go through a row softmax, and the softmax weights mix the feature rows;
  the mixed rows plus a position table, and the query rows, are each projected by a weight matrix; the projections'
  pairwise inner products, scaled, go through a second row softmax — the second result — whose weights mix the mixed
  rows again — the first result (Proof/Spec.lean, Proof/SpecArrays.lean).

  The kernel runs one grid point per batch entry. Within a point it keeps the mixed rows and the two projections in
  scratch buffers, the projections stored as four slices of 512 columns and read back whole; it is handed the weight
  matrices transposed and contracts them on their rows. The reference carries the batch axis through every operation,
  contracts the weight matrices on their columns, and takes each softmax's row maximum once more against −∞. On the
  extended reals a change of float format is the identity, a matrix product is the sum over the contracted
  coordinate however it is tiled or transposed, and `max (−∞) x = x`: so both sides are the specification, entry by
  entry, and no law of arithmetic that could fail at an infinity is used — the precondition that the inputs are finite
  is never opened.

  The kernel's side: Proof/KernelOps.lean (its reductions and products at coordinates), Proof/KernelPay.lean (its
  arithmetic is the specification's), Proof/KernelBlock.lean (the scratch round trips), Proof/KernelBlockValue.lean (the
  output blocks of a point), Proof/KernelArrays.lean (from the points' blocks to the arrays, over the generated run of
  the pipeline). The reference's side: Proof/RefStages.lean, over the generated reading of its run one operation at a
  time. The three frame claims are the generated frame runs; the kernel's idealization rewrote nothing.
-/
import proofs.«136536_j47201690583533_2_alg».proof.Defs
import proofs.«136536_j47201690583533_2_alg».proof.Proof.Gen.Kernel
import proofs.«136536_j47201690583533_2_alg».proof.Proof.Gen.Kernel.Skeleton
import proofs.«136536_j47201690583533_2_alg».proof.Proof.Gen.Kernel.Launch
import proofs.«136536_j47201690583533_2_alg».proof.Proof.Gen.Kernel.Points
import proofs.«136536_j47201690583533_2_alg».proof.Proof.Gen.Kernel.Frame
import proofs.«136536_j47201690583533_2_alg».proof.Proof.Gen.KernelIdeal
import proofs.«136536_j47201690583533_2_alg».proof.Proof.Gen.KernelIdeal.Skeleton
import proofs.«136536_j47201690583533_2_alg».proof.Proof.Gen.KernelIdeal.Launch
import proofs.«136536_j47201690583533_2_alg».proof.Proof.Gen.KernelIdeal.Points
import proofs.«136536_j47201690583533_2_alg».proof.Proof.Gen.KernelIdeal.Frame
import proofs.«136536_j47201690583533_2_alg».proof.Proof.Gen.ReferenceIdeal
import proofs.«136536_j47201690583533_2_alg».proof.Proof.Gen.Pre_finite_inputs
import proofs.«136536_j47201690583533_2_alg».proof.Proof.Gen.KernelIdeal.Value
import proofs.«136536_j47201690583533_2_alg».proof.Proof.Gen.ReferenceIdeal.Run
import proofs.«136536_j47201690583533_2_alg».proof.Proof.Gen.ReferenceIdeal.Read
import proofs.«136536_j47201690583533_2_alg».proof.Proof.KernelArrays
import proofs.«136536_j47201690583533_2_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the specification's two result arrays of those arguments. -/
theorem algebraic : Cert.algebraic_KernelIdeal_ReferenceIdeal := by
  intro m ρ m' ρ' _ hagree
  refine ⟨fun c => Cert.KernelIdeal.ArrayValue.G5 m c, fun c => Cert.KernelIdeal.ArrayValue.G6 m c,
    Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v39_eq, Cert.ReferenceIdeal.Stages.ref_out,
      (hagree c).1, (hagree c).2.1, (hagree c).2.2.1, (hagree c).2.2.2.1, (hagree c).2.2.2.2]
  · rw [(h c).2.1, Cert.ReferenceIdeal.Read.val_main_v38_eq, Cert.ReferenceIdeal.Stages.ref_attn,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
